-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x16x16 : Shape := ⟨4, ![256, 256, 16, 16]⟩
abbrev S64x5x256x16x16 : Shape := ⟨5, ![64, 5, 256, 16, 16]⟩
abbrev S_ : Shape := ⟨0, ![]⟩

class Facts : Prop where
  bcast_S_S256x256x16x16 : S_.BroadcastsInDim S256x256x16x16 (![] : Fin 0 → Fin S256x256x16x16.rank)
  reducesTo_S256x256x16x16_S_d0_1_2_3 : S256x256x16x16.ReducesTo [0, 1, 2, 3] S_
  h_S_ : 0 < S_.numel
  bcast_S_S64x5x256x16x16 : S_.BroadcastsInDim S64x5x256x16x16 (![] : Fin 0 → Fin S64x5x256x16x16.rank)
  reducesTo_S64x5x256x16x16_S_d0_1_2_3_4 : S64x5x256x16x16.ReducesTo [0, 1, 2, 3, 4] S_

variable [Facts]

def fn {F : FTy → Type} [FloatOps F] (main_arg0 : FVec F S256x256x16x16 .f32) (main_arg1 : FVec F S64x5x256x16x16 .f32) : IVec S_ 1 :=
  let main_v0 : FVec F S256x256x16x16 .f32 := Host.absf main_arg0
  let main_cst : FVec F S_ .f32 := constant S_ .f32 0x7F800000#32
  let main_v1 : FVec F S256x256x16x16 .f32 := broadcastInDim S256x256x16x16 ![] bcast_S_S256x256x16x16 main_cst
  let main_v2 : IVec S256x256x16x16 1 := cmpf .olt main_v0 main_v1
  let main_c : IVec S_ 1 := constantI S_ 1 1#1
  let main_v3 : IVec S_ 1 := (fun x v => Host.reduce IntOp.andi x v reducesTo_S256x256x16x16_S_d0_1_2_3 h_S_) main_v2 main_c
  let main_v4 : FVec F S64x5x256x16x16 .f32 := Host.absf main_arg1
  let main_cst_0 : FVec F S_ .f32 := constant S_ .f32 0x7F800000#32
  let main_v5 : FVec F S64x5x256x16x16 .f32 := broadcastInDim S64x5x256x16x16 ![] bcast_S_S64x5x256x16x16 main_cst_0
  let main_v6 : IVec S64x5x256x16x16 1 := cmpf .olt main_v4 main_v5
  let main_c_1 : IVec S_ 1 := constantI S_ 1 1#1
  let main_v7 : IVec S_ 1 := (fun x v => Host.reduce IntOp.andi x v reducesTo_S64x5x256x16x16_S_d0_1_2_3_4 h_S_) main_v6 main_c_1
  let main_v8 : IVec S_ 1 := andi main_v3 main_v7
  main_v8
-- ==== Kernel.lean ====
abbrev S256x256x16x16 : Shape := ⟨4, ![256, 256, 16, 16]⟩
abbrev S64x5x256x16x16 : Shape := ⟨5, ![64, 5, 256, 16, 16]⟩
abbrev S64x256x5x16x16 : Shape := ⟨5, ![64, 256, 5, 16, 16]⟩
abbrev S64x5x256x256 : Shape := ⟨4, ![64, 5, 256, 256]⟩
abbrev S64x256 : Shape := ⟨2, ![64, 256]⟩
abbrev S8x5x256x256 : Shape := ⟨4, ![8, 5, 256, 256]⟩
abbrev S8x256 : Shape := ⟨2, ![8, 256]⟩
abbrev S8x256x256 : Shape := ⟨3, ![8, 256, 256]⟩
abbrev S8x1x256x256 : Shape := ⟨4, ![8, 1, 256, 256]⟩
abbrev S8x1x256 : Shape := ⟨3, ![8, 1, 256]⟩
abbrev S256x256x256 : Shape := ⟨3, ![256, 256, 256]⟩
abbrev S256x256 : Shape := ⟨2, ![256, 256]⟩
abbrev S16x256x256 : Shape := ⟨3, ![16, 256, 256]⟩
abbrev S16x256 : Shape := ⟨2, ![16, 256]⟩
abbrev S16x256x1 : Shape := ⟨3, ![16, 256, 1]⟩
abbrev S256x64x256 : Shape := ⟨3, ![256, 64, 256]⟩
abbrev S64x64x256 : Shape := ⟨3, ![64, 64, 256]⟩
abbrev S64x1x256 : Shape := ⟨3, ![64, 1, 256]⟩
abbrev S1x64x256 : Shape := ⟨3, ![1, 64, 256]⟩
abbrev S256x16384 : Shape := ⟨2, ![256, 16384]⟩

abbrev nBuf : Space → Nat
  | .hbm => 11
  | .vmem => 20
  | .smem => 0
  | _ => 0

abbrev bufTy : (tb : Table) → Fin (tcTables nBuf tb) → BufTy
  | .hbm, ⟨0, _⟩ => ⟨S256x256x16x16, .f32⟩
  | .hbm, ⟨1, _⟩ => ⟨S64x5x256x16x16, .f32⟩
  | .hbm, ⟨2, _⟩ => ⟨S64x256x5x16x16, .f32⟩
  | .hbm, ⟨3, _⟩ => ⟨S64x5x256x256, .f32⟩
  | .hbm, ⟨4, _⟩ => ⟨S64x256, .f32⟩
  | .hbm, ⟨5, _⟩ => ⟨S64x256, .f32⟩
  | .hbm, ⟨6, _⟩ => ⟨S256x256x256, .f32⟩
  | .hbm, ⟨7, _⟩ => ⟨S256x256, .f32⟩
  | .hbm, ⟨8, _⟩ => ⟨S256x256, .f32⟩
  | .hbm, ⟨9, _⟩ => ⟨S256x64x256, .f32⟩
  | .hbm, ⟨10, _⟩ => ⟨S256x16384, .f32⟩
  | .local _ .vmem, ⟨0, _⟩ => ⟨S8x5x256x256, .f32⟩
  | .local _ .vmem, ⟨1, _⟩ => ⟨S8x5x256x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S16x256x256, .f32⟩
  | .local _ .vmem, ⟨7, _⟩ => ⟨S16x256x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | .local _ .vmem, ⟨18, _⟩ => ⟨S64x64x256, .f32⟩
  | .local _ .vmem, ⟨19, _⟩ => ⟨S64x64x256, .f32⟩
  | _, _ => ⟨S256x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x5x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S64x64x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S64x5x256x16x16_S64x256x5x16x16_0_2_1_3_4 : S64x5x256x16x16.Transposes [0, 2, 1, 3, 4] S64x256x5x16x16
  shapeCasts_S64x256x5x16x16_S64x5x256x256 : S64x256x5x16x16.ShapeCasts S64x5x256x256
  inb_S8x5x256x256_S8x1x256x256_0_0_0_0 : ∀ a, (![0, 0, 0, 0] : Fin 4 → Nat) a + S8x1x256x256.size a ≤ S8x5x256x256.size a
  h_S8x1x256x256 : 0 < S8x1x256x256.numel
  shapeCasts_S8x1x256x256_S8x256x256 : S8x1x256x256.ShapeCasts S8x256x256
  reduces_S8x256x256_S8x256 : S8x256x256.Reduces [1] S8x256
  shapeCasts_S8x256_S8x1x256 : S8x256.ShapeCasts S8x1x256
  broadcasts_S8x1x256_S8x256x256 : S8x1x256.Broadcasts S8x256x256
  inb_S8x5x256x256_S8x1x256x256_0_1_0_0 : ∀ a, (![0, 1, 0, 0] : Fin 4 → Nat) a + S8x1x256x256.size a ≤ S8x5x256x256.size a
  inb_S8x5x256x256_S8x1x256x256_0_2_0_0 : ∀ a, (![0, 2, 0, 0] : Fin 4 → Nat) a + S8x1x256x256.size a ≤ S8x5x256x256.size a
  inb_S8x5x256x256_S8x1x256x256_0_3_0_0 : ∀ a, (![0, 3, 0, 0] : Fin 4 → Nat) a + S8x1x256x256.size a ≤ S8x5x256x256.size a
  inb_S8x5x256x256_S8x1x256x256_0_4_0_0 : ∀ a, (![0, 4, 0, 0] : Fin 4 → Nat) a + S8x1x256x256.size a ≤ S8x5x256x256.size a
  inb_S8x256_S8x256_0_0 : ∀ a, (![0, 0] : Fin 2 → Nat) a + S8x256.size a ≤ S8x256.size a
  h_S8x256 : 0 < S8x256.numel
  shapeCasts_S256x256x16x16_S256x256x256 : S256x256x16x16.ShapeCasts S256x256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  reduces_S16x256x256_S16x256 : S16x256x256.Reduces [2] S16x256
  shapeCasts_S16x256_S16x256x1 : S16x256.ShapeCasts S16x256x1
  broadcasts_S16x256x1_S16x256x256 : S16x256x1.Broadcasts S16x256x256
  reduces_S16x256x256_S16x256_2 : S16x256x256.Reduces [1] S16x256
  inb_S16x256_S16x256_0_0 : ∀ a, (![0, 0] : Fin 2 → Nat) a + S16x256.size a ≤ S16x256.size a
  h_S16x256 : 0 < S16x256.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S64x1x256 : S64x256.ShapeCasts S64x1x256
  shapeCasts_S64x256_S1x64x256 : S64x256.ShapeCasts S1x64x256
  broadcasts_S64x1x256_S64x64x256 : S64x1x256.Broadcasts S64x64x256
  broadcasts_S1x64x256_S64x64x256 : S1x64x256.Broadcasts S64x64x256
  inb_S64x64x256_S64x64x256_0_0_0 : ∀ a, (![0, 0, 0] : Fin 3 → Nat) a + S64x64x256.size a ≤ S64x64x256.size a
  h_S64x64x256 : 0 < S64x64x256.numel
  shapeCasts_S256x64x256_S256x16384 : S256x64x256.ShapeCasts S256x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x5x256x256.size a ≤ S64x5x256x256.size a
  hwx0_0 : ∀ i : grid0.Coords, EltTy.bits .f32 = 32 ∨ (Rect.block (s := S64x5x256x256) S8x5x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S64x256.size a
  hwx0_1 : ∀ i : grid0.Coords, EltTy.bits .f32 = 32 ∨ (Rect.block (s := S64x256) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S64x256.size a
  hwx0_2 : ∀ i : grid0.Coords, EltTy.bits .f32 = 32 ∨ (Rect.block (s := S64x256) S8x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x256.size a ≤ S256x256x256.size a
  hwx1_0 : ∀ i : grid1.Coords, EltTy.bits .f32 = 32 ∨ (Rect.block (s := S256x256x256) S16x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256.size a ≤ S256x256.size a
  hwx1_1 : ∀ i : grid1.Coords, EltTy.bits .f32 = 32 ∨ (Rect.block (s := S256x256) S16x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S256x256.size a
  hwx1_2 : ∀ i : grid1.Coords, EltTy.bits .f32 = 32 ∨ (Rect.block (s := S256x256) S16x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x256.size a ≤ S256x256.size a
  hwx2_0 : ∀ i : grid2.Coords, EltTy.bits .f32 = 32 ∨ (Rect.block (s := S256x256) S64x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S256x256.size a
  hwx2_1 : ∀ i : grid2.Coords, EltTy.bits .f32 = 32 ∨ (Rect.block (s := S256x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x256.size a ≤ S64x256.size a
  hwx2_2 : ∀ i : grid2.Coords, EltTy.bits .f32 = 32 ∨ (Rect.block (s := S64x256) S64x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x256.size a
  hwx2_3 : ∀ i : grid2.Coords, EltTy.bits .f32 = 32 ∨ (Rect.block (s := S64x256) S64x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x64x256.size a ≤ S256x64x256.size a
  hwx2_4 : ∀ i : grid2.Coords, EltTy.bits .f32 = 32 ∨ (Rect.block (s := S256x64x256) S64x64x256.size (cc2_transform_4 i) (hinb2_4 i)).WholeWords (EltTy.packing .f32)

variable [Facts₀]

abbrev win0_0 : Pipeline.Window sig grid0 :=
  Pipeline.Window.ofSpec (Memref.whole main_v1) S8x5x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S8x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S16x256.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S16x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4_0) S64x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_1) S64x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_0) S64x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S64x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S64x64x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S256x256x16x16 : Shape := ⟨4, ![256, 256, 16, 16]⟩
abbrev S64x5x256x16x16 : Shape := ⟨5, ![64, 5, 256, 16, 16]⟩
abbrev S64x256x5x16x16 : Shape := ⟨5, ![64, 256, 5, 16, 16]⟩
abbrev S64x5x256x256 : Shape := ⟨4, ![64, 5, 256, 256]⟩
abbrev S_ : Shape := ⟨0, ![]⟩
abbrev S64x5x256 : Shape := ⟨3, ![64, 5, 256]⟩
abbrev S64x5x1x256 : Shape := ⟨4, ![64, 5, 1, 256]⟩
abbrev S64x256x256 : Shape := ⟨3, ![64, 256, 256]⟩
abbrev S256x256x256 : Shape := ⟨3, ![256, 256, 256]⟩
abbrev S256x256 : Shape := ⟨2, ![256, 256]⟩
abbrev S256x256x1 : Shape := ⟨3, ![256, 256, 1]⟩
abbrev S64x256 : Shape := ⟨2, ![64, 256]⟩
abbrev S256x1x256 : Shape := ⟨3, ![256, 1, 256]⟩
abbrev S1x64x256 : Shape := ⟨3, ![1, 64, 256]⟩
abbrev S256x64x256 : Shape := ⟨3, ![256, 64, 256]⟩
abbrev S256x16384 : Shape := ⟨2, ![256, 16384]⟩

abbrev nBuf : Space → Nat
  | .hbm => 49
  | .vmem => 0
  | .smem => 0
  | _ => 0

abbrev bufTy : (tb : Table) → Fin (tcTables nBuf tb) → BufTy
  | .hbm, ⟨0, _⟩ => ⟨S256x256x16x16, .f32⟩
  | .hbm, ⟨1, _⟩ => ⟨S64x5x256x16x16, .f32⟩
  | .hbm, ⟨2, _⟩ => ⟨S64x256x5x16x16, .f32⟩
  | .hbm, ⟨3, _⟩ => ⟨S64x5x256x256, .f32⟩
  | .hbm, ⟨4, _⟩ => ⟨S_, .f32⟩
  | .hbm, ⟨5, _⟩ => ⟨S64x5x256, .f32⟩
  | .hbm, ⟨6, _⟩ => ⟨S64x5x1x256, .f32⟩
  | .hbm, ⟨7, _⟩ => ⟨S_, .f32⟩
  | .hbm, ⟨8, _⟩ => ⟨S64x5x1x256, .f32⟩
  | .hbm, ⟨9, _⟩ => ⟨S64x5x1x256, .f32⟩
  | .hbm, ⟨10, _⟩ => ⟨S64x5x256x256, .f32⟩
  | .hbm, ⟨11, _⟩ => ⟨S64x5x256x256, .f32⟩
  | .hbm, ⟨12, _⟩ => ⟨S_, .f32⟩
  | .hbm, ⟨13, _⟩ => ⟨S64x256x256, .f32⟩
  | .hbm, ⟨14, _⟩ => ⟨S256x256x256, .f32⟩
  | .hbm, ⟨15, _⟩ => ⟨S256x256x256, .f32⟩
  | .hbm, ⟨16, _⟩ => ⟨S_, .f32⟩
  | .hbm, ⟨17, _⟩ => ⟨S256x256, .f32⟩
  | .hbm, ⟨18, _⟩ => ⟨S256x256x1, .f32⟩
  | .hbm, ⟨19, _⟩ => ⟨S256x256x1, .f32⟩
  | .hbm, ⟨20, _⟩ => ⟨S256x256x256, .f32⟩
  | .hbm, ⟨21, _⟩ => ⟨S256x256x256, .f32⟩
  | .hbm, ⟨22, _⟩ => ⟨S_, .f32⟩
  | .hbm, ⟨23, _⟩ => ⟨S256x256, .f32⟩
  | .hbm, ⟨24, _⟩ => ⟨S_, .f32⟩
  | .hbm, ⟨25, _⟩ => ⟨S64x256, .f32⟩
  | .hbm, ⟨26, _⟩ => ⟨S64x256x256, .f32⟩
  | .hbm, ⟨27, _⟩ => ⟨S_, .f32⟩
  | .hbm, ⟨28, _⟩ => ⟨S64x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x1x256, .f32⟩
  | .hbm, ⟨34, _⟩ => ⟨S1x64x256, .f32⟩
  | .hbm, ⟨35, _⟩ => ⟨S256x64x256, .f32⟩
  | .hbm, ⟨36, _⟩ => ⟨S256x64x256, .f32⟩
  | .hbm, ⟨37, _⟩ => ⟨S256x64x256, .f32⟩
  | .hbm, ⟨38, _⟩ => ⟨S256x1x256, .f32⟩
  | .hbm, ⟨39, _⟩ => ⟨S1x64x256, .f32⟩
  | .hbm, ⟨40, _⟩ => ⟨S256x64x256, .f32⟩
  | .hbm, ⟨41, _⟩ => ⟨S256x64x256, .f32⟩
  | .hbm, ⟨42, _⟩ => ⟨S256x64x256, .f32⟩
  | .hbm, ⟨43, _⟩ => ⟨S_, .f32⟩
  | .hbm, ⟨44, _⟩ => ⟨S256x64x256, .f32⟩
  | .hbm, ⟨45, _⟩ => ⟨S256x64x256, .f32⟩
  | .hbm, ⟨46, _⟩ => ⟨S256x64x256, .f32⟩
  | .hbm, ⟨47, _⟩ => ⟨S256x64x256, .f32⟩
  | .hbm, ⟨48, _⟩ => ⟨S256x16384, .f32⟩
  | _, _ => ⟨S256x256x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  transposes_S64x5x256x16x16_S64x256x5x16x16_0_2_1_3_4 : S64x5x256x16x16.Transposes [0, 2, 1, 3, 4] S64x256x5x16x16
  shapeCasts_S64x256x5x16x16_S64x5x256x256 : S64x256x5x16x16.ShapeCasts S64x5x256x256
  reducesTo_S64x5x256x256_S64x5x256_d2 : S64x5x256x256.ReducesTo [2] S64x5x256
  h_S_ : 0 < S_.numel
  bcast_S64x5x256_S64x5x1x256_0_1_3 : S64x5x256.BroadcastsInDim S64x5x1x256 (![0, 1, 3] : Fin 3 → Fin S64x5x1x256.rank)
  bcast_S_S64x5x1x256 : S_.BroadcastsInDim S64x5x1x256 (![] : Fin 0 → Fin S64x5x1x256.rank)
  bcast_S64x5x1x256_S64x5x256x256_0_1_2_3 : S64x5x1x256.BroadcastsInDim S64x5x256x256 (![0, 1, 2, 3] : Fin 4 → Fin S64x5x256x256.rank)
  reducesTo_S64x5x256x256_S64x256x256_d1 : S64x5x256x256.ReducesTo [1] S64x256x256
  shapeCasts_S256x256x16x16_S256x256x256 : S256x256x16x16.ShapeCasts S256x256x256
  reducesTo_S256x256x256_S256x256_d2 : S256x256x256.ReducesTo [2] S256x256
  bcast_S256x256_S256x256x1_0_1 : S256x256.BroadcastsInDim S256x256x1 (![0, 1] : Fin 2 → Fin S256x256x1.rank)
  bcast_S256x256x1_S256x256x256_0_1_2 : S256x256x1.BroadcastsInDim S256x256x256 (![0, 1, 2] : Fin 3 → Fin S256x256x256.rank)
  reducesTo_S256x256x256_S256x256_d1 : S256x256x256.ReducesTo [1] S256x256
  reducesTo_S64x256x256_S64x256_d1 : S64x256x256.ReducesTo [1] S64x256
  bcast_S_S256x256 : S_.BroadcastsInDim S256x256 (![] : Fin 0 → Fin S256x256.rank)
  bcast_S256x256_S256x1x256_0_2 : S256x256.BroadcastsInDim S256x1x256 (![0, 2] : Fin 2 → Fin S256x1x256.rank)
  bcast_S64x256_S1x64x256_1_2 : S64x256.BroadcastsInDim S1x64x256 (![1, 2] : Fin 2 → Fin S1x64x256.rank)
  bcast_S256x1x256_S256x64x256_0_1_2 : S256x1x256.BroadcastsInDim S256x64x256 (![0, 1, 2] : Fin 3 → Fin S256x64x256.rank)
  bcast_S1x64x256_S256x64x256_0_1_2 : S1x64x256.BroadcastsInDim S256x64x256 (![0, 1, 2] : Fin 3 → Fin S256x64x256.rank)
  bcast_S_S256x64x256 : S_.BroadcastsInDim S256x64x256 (![] : Fin 0 → Fin S256x64x256.rank)
  shapeCasts_S256x64x256_S256x16384 : S256x64x256.ShapeCasts S256x16384

variable [Facts₀]

class Facts : Prop extends Facts₀ where

variable [Facts]
-- ==== Proof.Run.lean ====
/-
  The idealized kernel's whole run with its result kept: from any launch memory every weakly fair execution of @main
  terminates without a fault, the argument arrays end as launched, and the result buffer ends holding what the fold of
  @main's segments leaves there — the last reshape applied to the third call's output array as that call's write-backs
  leave it.
-/
import proofs.«120627_j635655160223_2_alg».proof.Proof.Gen.KernelIdeal.Frame

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run over @main's six segments, read at the end against the final state: every unscoped buffer holds the last
    boundary's contents, so the result buffer does, and each argument's walks back to the launch memory. -/
theorem run_main : θ_run defs (onTc (τ := τ) (main (F := F))) ⟨m, fun _ => 0, ρ⟩ (fun r => ∀ c : Dev nD,
      r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v6 (by decide)),
       (h c _ (mem_uc main_arg0 (by decide))).trans (W6_main_arg0 m ρ c),
       (h c _ (mem_uc main_arg1 (by decide))).trans (W6_main_arg1 m ρ c)⟩)

end Cert.KernelIdeal.Val

end
-- ==== Proof.LibRsqrtSqrt.lean ====
/-
  On the extended reals, once the argument is at or above a positive real, multiplying by the reciprocal square root is
  dividing by the square root: at a positive real both are the product with `(√m)⁻¹`; at `⊤` the reciprocal square root
  is `0` and the quotient by `√⊤ = ⊤` is the product with `⊤⁻¹ = 0`. Below a positive real the two differ (at `0` one is a
  product with `⊤`, the other a quotient by `0`), which is why a floor under the root — `max d ε` with `ε` a positive
  real — is what makes `x · rsqrt (max d ε)` and `x / sqrt (max d ε)` one function of `x` and `d`.
-/
import Idealize.ShloMosaic.PureOps.Ideal

noncomputable section

namespace Cert.LibRsqrtSqrt

open Idealize.ShloMosaic

/-- At or above a positive real `r`, `x · rsqrt m = x / sqrt m`, for every extended real `x`. -/
theorem mul_rsqrt_eq_div_sqrt (x m : EReal) (r : ℝ) (hr : 0 < r) (hm : (r : EReal) ≤ m) :
    x * Ideal.rsqrt m = Ideal.div x (Ideal.sqrt m) := by
  induction m using EReal.rec with
  | bot => exact absurd hm (by simp)
  | top =>
    rw [Ideal.rsqrt_top, Ideal.sqrt_top, Ideal.div, if_neg (by simp), mul_zero]
    simp
  | coe t =>
    have ht : 0 < t := lt_of_lt_of_le hr (by exact_mod_cast hm)
    have hs : 0 < Real.sqrt t := Real.sqrt_pos.mpr ht
    rw [Ideal.rsqrt_coe, Ideal.sqrt_coe, if_neg (not_lt.mpr ht.le), if_neg ht.ne', if_neg (not_lt.mpr ht.le), Ideal.div,
      if_neg (by exact_mod_cast hs.ne'), ← EReal.coe_inv]

/-- The same under a floor: for `e` a positive real, `x · rsqrt (max d e) = x / sqrt (max d e)` whatever `x` and `d` are. -/
theorem mul_rsqrt_max_eq_div_sqrt_max (x d e : EReal) (r : ℝ) (hr : 0 < r) (he : e = (r : EReal)) :
    x * Ideal.rsqrt (max d e) = Ideal.div x (Ideal.sqrt (max d e)) :=
  mul_rsqrt_eq_div_sqrt x (max d e) r hr (he ▸ le_max_right d e)

end Cert.LibRsqrtSqrt

end
-- ==== Proof.Spec.lean ====
/-
  What both programs compute, on the extended reals, written once and over no program.

  The support array `v` has shape [64, 5, 256, 256] (row n, shot s, channel c, position k) and the query array `q`
  has shape [256, 256, 256] (row b, channel c, position k).

  Per support row: every shot is centred over its channels, `v s c k - (∑ c', v s c' k) / 256`, the centred shots are
  added (`cen`), and the result is summed over the channels, plainly (`ssumc`) and squared (`wtwo`).
  Per query row: every channel is divided by its Euclidean norm over the positions (`nrm`), the quotients are added
  over the channels (`qsum`), and `wone = 256 · qsum · qsum`.
  The similarity of query row b with support row n at position k is
  `qsum · ssumc / sqrt (max (wone · wtwo) ε²)` (`simR`); the other spelling multiplies by the reciprocal square
  root instead (`simK`). Since `max _ ε²` is at least the positive real ε², the two agree on every extended real:
  at a real maximum both are the product with `(√m)⁻¹`, at `⊤` both are `0` (`simK_eq_simR`).
-/
import Idealize.ShloMosaic.PureOps.Ideal
import Idealize.ShloMosaic.PureOps.Ideal.Laws
import Idealize.ShloMosaic.Lib.ValueIdx
import proofs.«120627_j635655160223_2_alg».proof.Proof.LibRsqrtSqrt

noncomputable section

open scoped BigOperators

namespace Cert.CorrSim

open Idealize.ShloMosaic Idealize.ShloMosaic.ValueIdx

/-- The channel count 256 as both programs spell it. -/
def w256 : EReal := Ideal.ofBits .f32 0x43800000#32
/-- The floor ε² under the square root as both programs spell it. -/
def eps2 : EReal := Ideal.ofBits .f32 0x24E69595#32

/-! ## One support row -/

/-- The mean over the channels of shot `s` at position `k`. -/
def mu (v : Fin 5 → Fin 256 → Fin 256 → EReal) (s : Fin 5) (k : Fin 256) : EReal :=
  Ideal.div (∑ c : Fin 256, v s c k) w256
/-- The centred shots added. -/
def cen (v : Fin 5 → Fin 256 → Fin 256 → EReal) (c k : Fin 256) : EReal :=
  ∑ s : Fin 5, (v s c k - mu v s k)
def ssumc (v : Fin 5 → Fin 256 → Fin 256 → EReal) (k : Fin 256) : EReal := ∑ c : Fin 256, cen v c k
def wtwo (v : Fin 5 → Fin 256 → Fin 256 → EReal) (k : Fin 256) : EReal := ∑ c : Fin 256, cen v c k * cen v c k

/-- Adding the five centred shots one after the other onto zero is their sum. -/
theorem cen_eq_chain (v : Fin 5 → Fin 256 → Fin 256 → EReal) (c k : Fin 256) :
    ((((0 + (v 0 c k - mu v 0 k)) + (v 1 c k - mu v 1 k)) + (v 2 c k - mu v 2 k)) + (v 3 c k - mu v 3 k))
      + (v 4 c k - mu v 4 k) = cen v c k := by
  unfold cen
  rw [Fin.sum_univ_five, zero_add]

/-! ## One query row -/

def nrm (q : Fin 256 → Fin 256 → EReal) (c : Fin 256) : EReal := Ideal.sqrt (∑ k : Fin 256, q c k * q c k)
def qsum (q : Fin 256 → Fin 256 → EReal) (k : Fin 256) : EReal := ∑ c : Fin 256, Ideal.div (q c k) (nrm q c)
def wone (q : Fin 256 → Fin 256 → EReal) (k : Fin 256) : EReal := (w256 * qsum q k) * qsum q k

/-! ## One entry of the similarity, in its two spellings -/

def simK (a b s w : EReal) : EReal := (a * s) * Ideal.rsqrt (max (b * w) eps2)
def simR (a b s w : EReal) : EReal := Ideal.div (a * s) (Ideal.sqrt (max (b * w) eps2))

/-- ε² is a positive real. -/
theorem eps2_pos : ∃ r : ℝ, 0 < r ∧ eps2 = (r : EReal) := by
  refine ⟨(15111573 : ℝ) * (2 : ℝ) ^ (-77 : Int), by positivity, ?_⟩
  unfold eps2
  simp [Ideal.ofBits, Ideal.ieee, -EReal.coe_mul]

theorem simK_eq_simR (a b s w : EReal) : simK a b s w = simR a b s w := by
  obtain ⟨r, hr, he⟩ := eps2_pos
  unfold simK simR
  exact Cert.LibRsqrtSqrt.mul_rsqrt_max_eq_div_sqrt_max _ _ _ r hr he

/-! ## The whole arrays -/

abbrev Sv : Shape := ⟨4, ![64, 5, 256, 256]⟩
abbrev Sq : Shape := ⟨3, ![256, 256, 256]⟩
abbrev Sn : Shape := ⟨2, ![64, 256]⟩
abbrev Sb : Shape := ⟨2, ![256, 256]⟩
abbrev So : Shape := ⟨3, ![256, 64, 256]⟩

/-- Support row `n` of `v`. -/
def row (v : Sv.Idx → EReal) (n : Fin 64) : Fin 5 → Fin 256 → Fin 256 → EReal := fun s c k => v (ix4 n s c k)
/-- Query row `b` of `q`. -/
def qrow (q : Sq.Idx → EReal) (b : Fin 256) : Fin 256 → Fin 256 → EReal := fun c k => q (ix3 b c k)

def SsumC (v : Sv.Idx → EReal) : Sn.Idx → EReal :=
  fun i => ssumc (row v ⟨(i 0).val, (i 0).isLt⟩) ⟨(i 1).val, (i 1).isLt⟩
def WTwo (v : Sv.Idx → EReal) : Sn.Idx → EReal :=
  fun i => wtwo (row v ⟨(i 0).val, (i 0).isLt⟩) ⟨(i 1).val, (i 1).isLt⟩
def Qsum (q : Sq.Idx → EReal) : Sb.Idx → EReal :=
  fun i => qsum (qrow q ⟨(i 0).val, (i 0).isLt⟩) ⟨(i 1).val, (i 1).isLt⟩
def WOne (q : Sq.Idx → EReal) : Sb.Idx → EReal :=
  fun i => wone (qrow q ⟨(i 0).val, (i 0).isLt⟩) ⟨(i 1).val, (i 1).isLt⟩

/-- The similarity array [256, 64, 256] from the four reduced arrays, reciprocal-square-root spelling. -/
def SimK (Q W1 : Sb.Idx → EReal) (S W2 : Sn.Idx → EReal) : So.Idx → EReal := fun i =>
  simK (Q (ix2 ⟨(i 0).val, (i 0).isLt⟩ ⟨(i 2).val, (i 2).isLt⟩)) (W1 (ix2 ⟨(i 0).val, (i 0).isLt⟩ ⟨(i 2).val, (i 2).isLt⟩))
    (S (ix2 ⟨(i 1).val, (i 1).isLt⟩ ⟨(i 2).val, (i 2).isLt⟩)) (W2 (ix2 ⟨(i 1).val, (i 1).isLt⟩ ⟨(i 2).val, (i 2).isLt⟩))
/-- The same, quotient spelling. -/
def SimR (Q W1 : Sb.Idx → EReal) (S W2 : Sn.Idx → EReal) : So.Idx → EReal := fun i =>
  simR (Q (ix2 ⟨(i 0).val, (i 0).isLt⟩ ⟨(i 2).val, (i 2).isLt⟩)) (W1 (ix2 ⟨(i 0).val, (i 0).isLt⟩ ⟨(i 2).val, (i 2).isLt⟩))
    (S (ix2 ⟨(i 1).val, (i 1).isLt⟩ ⟨(i 2).val, (i 2).isLt⟩)) (W2 (ix2 ⟨(i 1).val, (i 1).isLt⟩ ⟨(i 2).val, (i 2).isLt⟩))

theorem SimK_eq_SimR (Q W1 : Sb.Idx → EReal) (S W2 : Sn.Idx → EReal) : SimK Q W1 S W2 = SimR Q W1 S W2 :=
  funext fun _ => simK_eq_simR _ _ _ _

/-! Read at coordinates (all by computation). -/
theorem SsumC_apply (v : Sv.Idx → EReal) (n : Fin 64) (k : Fin 256) : SsumC v (ix2 n k) = ssumc (row v n) k := rfl
theorem WTwo_apply (v : Sv.Idx → EReal) (n : Fin 64) (k : Fin 256) : WTwo v (ix2 n k) = wtwo (row v n) k := rfl
theorem Qsum_apply (q : Sq.Idx → EReal) (b : Fin 256) (k : Fin 256) : Qsum q (ix2 b k) = qsum (qrow q b) k := rfl
theorem WOne_apply (q : Sq.Idx → EReal) (b : Fin 256) (k : Fin 256) : WOne q (ix2 b k) = wone (qrow q b) k := rfl
theorem SimK_apply (Q W1 : Sb.Idx → EReal) (S W2 : Sn.Idx → EReal) (b : Fin 256) (n : Fin 64) (k : Fin 256) :
    SimK Q W1 S W2 (ix3 b n k) = simK (Q (ix2 b k)) (W1 (ix2 b k)) (S (ix2 n k)) (W2 (ix2 n k)) := rfl
theorem SimR_apply (Q W1 : Sb.Idx → EReal) (S W2 : Sn.Idx → EReal) (b : Fin 256) (n : Fin 64) (k : Fin 256) :
    SimR Q W1 S W2 (ix3 b n k) = simR (Q (ix2 b k)) (W1 (ix2 b k)) (S (ix2 n k)) (W2 (ix2 n k)) := rfl

end Cert.CorrSim

end
-- ==== Proof.Region0Pay.lean ====
import proofs.«120627_j635655160223_2_alg».proof.Proof.Gen.KernelIdeal.Frame
import proofs.«120627_j635655160223_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.CorrSim
open Idealize.ShloMosaic Idealize.ShloMosaic.TcCoe Idealize.ShloMosaic.ValueIdx Idealize.SL.Sem
open Idealize.ShloMosaic.Pipeline (Dat Cfg Window)

/-! # The first call's body, read at coordinates

The body holds a block `X` of shape [8, 5, 256, 256] (8 support rows). For every shot it loads the shot's slab, sums it over
the channels, divides by 256, subtracts that mean from the slab, and adds the centred slabs one after the other onto zero;
it stores the channel sums of the result and of its square. -/

theorem hz2 : (![0, 0] : Fin 2 → Nat) = fun _ => 0 := funext fun a => by fin_cases a <;> rfl

/-- A load of shot `s` of the block reads the block at shot `s`. -/
theorem ld_shot0 (X : Vec Ideal S8x5x256x256 .f32) (r : Fin 8) (c k : Fin 256) :
    View.ld X r0_0 (ix4 r (0 : Fin 1) c k) = X (ix4 r (0 : Fin 5) c k) := by
  refine congrArg X (funext fun a => Fin.ext ?_)
  match a with
  | ⟨0, _⟩ => show 0 + 1 * r.val = r.val; omega
  | ⟨1, _⟩ => show 0 + 1 * 0 = 0; rfl
  | ⟨2, _⟩ => show 0 + 1 * c.val = c.val; omega
  | ⟨3, _⟩ => show 0 + 1 * k.val = k.val; omega
theorem ld_shot1 (X : Vec Ideal S8x5x256x256 .f32) (r : Fin 8) (c k : Fin 256) :
    View.ld X r0_1 (ix4 r (0 : Fin 1) c k) = X (ix4 r (1 : Fin 5) c k) := by
  refine congrArg X (funext fun a => Fin.ext ?_)
  match a with
  | ⟨0, _⟩ => show 0 + 1 * r.val = r.val; omega
  | ⟨1, _⟩ => show 1 + 1 * 0 = 1; rfl
  | ⟨2, _⟩ => show 0 + 1 * c.val = c.val; omega
  | ⟨3, _⟩ => show 0 + 1 * k.val = k.val; omega
theorem ld_shot2 (X : Vec Ideal S8x5x256x256 .f32) (r : Fin 8) (c k : Fin 256) :
    View.ld X r0_2 (ix4 r (0 : Fin 1) c k) = X (ix4 r (2 : Fin 5) c k) := by
  refine congrArg X (funext fun a => Fin.ext ?_)
  match a with
  | ⟨0, _⟩ => show 0 + 1 * r.val = r.val; omega
  | ⟨1, _⟩ => show 2 + 1 * 0 = 2; rfl
  | ⟨2, _⟩ => show 0 + 1 * c.val = c.val; omega
  | ⟨3, _⟩ => show 0 + 1 * k.val = k.val; omega
theorem ld_shot3 (X : Vec Ideal S8x5x256x256 .f32) (r : Fin 8) (c k : Fin 256) :
    View.ld X r0_3 (ix4 r (0 : Fin 1) c k) = X (ix4 r (3 : Fin 5) c k) := by
  refine congrArg X (funext fun a => Fin.ext ?_)
  match a with
  | ⟨0, _⟩ => show 0 + 1 * r.val = r.val; omega
  | ⟨1, _⟩ => show 3 + 1 * 0 = 3; rfl
  | ⟨2, _⟩ => show 0 + 1 * c.val = c.val; omega
  | ⟨3, _⟩ => show 0 + 1 * k.val = k.val; omega
theorem ld_shot4 (X : Vec Ideal S8x5x256x256 .f32) (r : Fin 8) (c k : Fin 256) :
    View.ld X r0_4 (ix4 r (0 : Fin 1) c k) = X (ix4 r (4 : Fin 5) c k) := by
  refine congrArg X (funext fun a => Fin.ext ?_)
  match a with
  | ⟨0, _⟩ => show 0 + 1 * r.val = r.val; omega
  | ⟨1, _⟩ => show 4 + 1 * 0 = 4; rfl
  | ⟨2, _⟩ => show 0 + 1 * c.val = c.val; omega
  | ⟨3, _⟩ => show 0 + 1 * k.val = k.val; omega

/-- A slab [8, 1, 256, 256] with its unit axis dropped. -/
theorem cast_slab (v : Vec Ideal S8x1x256x256 .f32) (r : Fin 8) (c k : Fin 256) :
    shapeCast S8x256x256 v shapeCasts_S8x1x256x256_S8x256x256 (ix3 r c k) = v (ix4 r (0 : Fin 1) c k) := by
  refine shapeCast_apply v _ (ix3 r c k) (ix4 r (0 : Fin 1) c k) ?_
  rw [Shape.rowMajor_val_four, Shape.rowMajor_val_three]
  show ((r.val * 1 + 0) * 256 + c.val) * 256 + k.val = (r.val * 256 + c.val) * 256 + k.val
  omega

/-- A channel sum [8, 256] with a unit axis put in the middle. -/
theorem cast_keep (v : FVec Ideal S8x256 .f32) (r : Fin 8) (k : Fin 256) :
    shapeCast S8x1x256 v shapeCasts_S8x256_S8x1x256 (ix3 r (0 : Fin 1) k) = v (ix2 r k) := by
  refine shapeCast_apply v _ (ix3 r (0 : Fin 1) k) (ix2 r k) ?_
  rw [Shape.rowMajor_val_three, Shape.rowMajor_val_two]
  show r.val * 256 + k.val = (r.val * 1 + 0) * 256 + k.val
  omega

/-- A mean [8, 1, 256] stretched over the channels. -/
theorem bcast_keep (v : FVec Ideal S8x1x256 .f32) (r : Fin 8) (c k : Fin 256) :
    broadcastTo S8x256x256 v broadcasts_S8x1x256_S8x256x256 (ix3 r c k) = v (ix3 r (0 : Fin 1) k) := by
  refine broadcastTo_apply v _ (ix3 r c k) (ix3 r (0 : Fin 1) k) fun a => ?_
  match a with
  | ⟨0, _⟩ => show r.val = if (8 : Nat) = 1 then 0 else r.val; rw [if_neg (by decide)]
  | ⟨1, _⟩ => show 0 = if (1 : Nat) = 1 then 0 else c.val; rw [if_pos rfl]
  | ⟨2, _⟩ => show k.val = if (256 : Nat) = 1 then 0 else k.val; rw [if_neg (by decide)]

/-- The sum over the channels of a [8, 256, 256] value. -/
theorem sum_channels (src : FVec Ideal S8x256x256 .f32) (r : Fin 8) (k : Fin 256) :
    multiReduction .add [1] S8x256 src 0x00000000#32 reduces_S8x256x256_S8x256 (.inl rfl) rfl (ix2 r k)
      = ∑ c : Fin 256, src (ix3 r c k) := by
  refine (Ideal.multiReduction_add_single src 0x00000000#32 reduces_S8x256x256_S8x256 (.inl rfl) rfl (ix2 r k)).trans ?_
  refine Finset.sum_congr rfl fun c _ => congrArg src (funext fun a => Fin.ext ?_)
  match a with
  | ⟨0, _⟩ => rfl
  | ⟨1, _⟩ => rfl
  | ⟨2, _⟩ => rfl

/-- One shot's slab centred over its channels, as the body computes it. -/
def shot (x : Vec Ideal S8x1x256x256 .f32) : FVec Ideal S8x256x256 .f32 :=
  subf (shapeCast S8x256x256 x shapeCasts_S8x1x256x256_S8x256x256)
    (broadcastTo S8x256x256
      (divf (shapeCast S8x1x256
          (multiReduction .add [1] S8x256 (shapeCast S8x256x256 x shapeCasts_S8x1x256x256_S8x256x256) 0x00000000#32
            reduces_S8x256x256_S8x256 (.inl rfl) rfl) shapeCasts_S8x256_S8x1x256)
        (broadcast S8x1x256 (Scalar.ofBits (F := Ideal) .f32 0x43800000#32)))
      broadcasts_S8x1x256_S8x256x256)

/-- One slab's entry at (r, c, k) less the slab's mean over the channels at (r, k). -/
def centred (x : Vec Ideal S8x1x256x256 .f32) (r : Fin 8) (c k : Fin 256) : EReal :=
  x (ix4 r (0 : Fin 1) c k) - Ideal.div (∑ c' : Fin 256, x (ix4 r (0 : Fin 1) c' k)) w256

theorem shot_apply (x : Vec Ideal S8x1x256x256 .f32) (r : Fin 8) (c k : Fin 256) :
    shot x (ix3 r c k) = centred x r c k := by
  unfold shot centred
  rw [subf_apply, cast_slab, bcast_keep, divf_apply, cast_keep, sum_channels]
  rw [Finset.sum_congr rfl fun c' _ => cast_slab x r c' k]
  rfl

/-- The centred entry of the slab loaded at shot `s` is the block's entry at shot `s` less that shot's mean. -/
theorem centred_ld0 (X : Vec Ideal S8x5x256x256 .f32) (r : Fin 8) (c k : Fin 256) :
    centred (View.ld X r0_0) r c k
      = (fun s c' k' => X (ix4 r s c' k')) (0 : Fin 5) c k - mu (fun s c' k' => X (ix4 r s c' k')) (0 : Fin 5) k := by
  unfold centred mu
  rw [ld_shot0, Finset.sum_congr rfl fun c' _ => ld_shot0 X r c' k]
theorem centred_ld1 (X : Vec Ideal S8x5x256x256 .f32) (r : Fin 8) (c k : Fin 256) :
    centred (View.ld X r0_1) r c k
      = (fun s c' k' => X (ix4 r s c' k')) (1 : Fin 5) c k - mu (fun s c' k' => X (ix4 r s c' k')) (1 : Fin 5) k := by
  unfold centred mu
  rw [ld_shot1, Finset.sum_congr rfl fun c' _ => ld_shot1 X r c' k]
theorem centred_ld2 (X : Vec Ideal S8x5x256x256 .f32) (r : Fin 8) (c k : Fin 256) :
    centred (View.ld X r0_2) r c k
      = (fun s c' k' => X (ix4 r s c' k')) (2 : Fin 5) c k - mu (fun s c' k' => X (ix4 r s c' k')) (2 : Fin 5) k := by
  unfold centred mu
  rw [ld_shot2, Finset.sum_congr rfl fun c' _ => ld_shot2 X r c' k]
theorem centred_ld3 (X : Vec Ideal S8x5x256x256 .f32) (r : Fin 8) (c k : Fin 256) :
    centred (View.ld X r0_3) r c k
      = (fun s c' k' => X (ix4 r s c' k')) (3 : Fin 5) c k - mu (fun s c' k' => X (ix4 r s c' k')) (3 : Fin 5) k := by
  unfold centred mu
  rw [ld_shot3, Finset.sum_congr rfl fun c' _ => ld_shot3 X r c' k]
theorem centred_ld4 (X : Vec Ideal S8x5x256x256 .f32) (r : Fin 8) (c k : Fin 256) :
    centred (View.ld X r0_4) r c k
      = (fun s c' k' => X (ix4 r s c' k')) (4 : Fin 5) c k - mu (fun s c' k' => X (ix4 r s c' k')) (4 : Fin 5) k := by
  unfold centred mu
  rw [ld_shot4, Finset.sum_congr rfl fun c' _ => ld_shot4 X r c' k]

/-- The five centred slabs added one after the other onto zero: the value both stores are computed from. -/
theorem chain_eq (a b c d e : Vec Ideal S8x1x256x256 .f32) :
    k0_pay1 (k0_pay4 a b c) (k0_pay5 d) (k0_pay6 d) e
      = addf (addf (addf (addf (addf (broadcast S8x256x256 (Scalar.ofBits (F := Ideal) .f32 0x00000000#32)) (shot a)) (shot b)) (shot c)) (shot d)) (shot e) := rfl

/-- Read at row r, channel c, position k it is the added centred shots of row r. -/
theorem chain_apply (X : Vec Ideal S8x5x256x256 .f32) (r : Fin 8) (c k : Fin 256) :
    k0_pay1 (k0_pay4 (View.ld X r0_0) (View.ld X r0_1) (View.ld X r0_2)) (k0_pay5 (View.ld X r0_3)) (k0_pay6 (View.ld X r0_3)) (View.ld X r0_4) (ix3 r c k)
      = cen (fun s c' k' => X (ix4 r s c' k')) c k := by
  rw [chain_eq]
  show ((((Scalar.ofBits (F := Ideal) .f32 0x00000000#32 + shot (View.ld X r0_0) (ix3 r c k)) + shot (View.ld X r0_1) (ix3 r c k))
      + shot (View.ld X r0_2) (ix3 r c k)) + shot (View.ld X r0_3) (ix3 r c k)) + shot (View.ld X r0_4) (ix3 r c k) = _
  rw [shot_apply, shot_apply, shot_apply, shot_apply, shot_apply, centred_ld0, centred_ld1, centred_ld2, centred_ld3, centred_ld4,
    show Scalar.ofBits (F := Ideal) .f32 0x00000000#32 = (0 : EReal) from Ideal.ofBits_zero_f32]
  exact cen_eq_chain (fun s c' k' => X (ix4 r s c' k')) c k

/-- The first store: the channel sum. -/
theorem out0_1_apply (X : Vec Ideal S8x5x256x256 .f32) (r : Fin 8) (k : Fin 256) :
    out0_1 X (ix2 r k) = ssumc (fun s c' k' => X (ix4 r s c' k')) k := by
  unfold out0_1
  rw [View.canon_unit_zero hz2]
  unfold k0_pay2
  refine (sum_channels _ r k).trans ?_
  exact Finset.sum_congr rfl fun c _ => chain_apply X r c k

/-- The second store: the channel sum of the squares. -/
theorem out0_2_apply (X : Vec Ideal S8x5x256x256 .f32) (r : Fin 8) (k : Fin 256) :
    out0_2 X (ix2 r k) = wtwo (fun s c' k' => X (ix4 r s c' k')) k := by
  unfold out0_2
  rw [View.canon_unit_zero hz2]
  unfold k0_pay3
  refine (sum_channels _ r k).trans ?_
  refine Finset.sum_congr rfl fun c _ => ?_
  rw [mulf_apply, chain_apply]

end Cert.KernelIdeal.Val

end
-- ==== Proof.Region0.lean ====
import proofs.«120627_j635655160223_2_alg».proof.Proof.Region0Pay

noncomputable section

open scoped BigOperators

namespace Cert.KernelIdeal.Val

open Cert.KernelIdeal Cert.KernelIdeal.Gen Cert.CorrSim
open Idealize.ShloMosaic Idealize.ShloMosaic.TcCoe Idealize.ShloMosaic.ValueIdx Idealize.SL.Sem
open Idealize.ShloMosaic.Pipeline (Dat Cfg Window)

/-! # The first call's two output arrays

The call runs over 8 points; point `t` holds support rows 8 t … 8 t + 7 of the permuted array `v` (all shots, channels and
positions) and writes rows 8 t … 8 t + 7 of both [64, 256] outputs. A row of either output depends on that row of `v` alone,
so each block written is a block of one whole-array function of `v`, and the 8 blocks tile the 64 rows. -/

variable (V : (c : Dev nD) → (b : Ref sig .tc) → Buf (Elt Ideal) ((c : Thread nD τ).loc b))

/-- The index maps over the 8 points: on the row axis every window's block index is the point; elsewhere it is 0. -/
theorem idx0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `r` of point `t`'s blocks is support row 8 t + r. -/
def row0 (t : Fin cfg0.N) (r : Fin 8) : Fin 64 :=
  ⟨t.val * 8 + r.val, by have := t.isLt; have hN : cfg0.N = 8 := N_0; omega⟩

/-- The input block at point `t` is rows 8 t … 8 t + 7 of the array the region finds. -/
theorem iblk0_apply (c : Dev nD) (t : Fin cfg0.N) (r : Fin 8) (s : Fin 5) (cc k : Fin 256) :
    iblk0 V c 0 t (ix4 r s cc k) = V c main_v1 (ix4 (row0 t r) s cc k) := by
  obtain ⟨e0, e1, e2, e3, -⟩ := idx0 t
  show V c main_v1 (((cfg0.win 0).blk t).view.emb (ix4 r s cc k)) = _
  refine congrArg (V c main_v1) (funext fun a => Fin.ext ?_)
  match a with
  | ⟨0, _⟩ => show win0_0.index t (0 : Fin 4) * 8 + 1 * r.val = t.val * 8 + r.val; rw [e0]; omega
  | ⟨1, _⟩ => show win0_0.index t (1 : Fin 4) * 5 + 1 * s.val = s.val; rw [e1]; omega
  | ⟨2, _⟩ => show win0_0.index t (2 : Fin 4) * 256 + 1 * cc.val = cc.val; rw [e2]; omega
  | ⟨3, _⟩ => show win0_0.index t (3 : Fin 4) * 256 + 1 * k.val = k.val; rw [e3]; omega

/-- Where entry (r, k) of point `t`'s output block sits in the output array. -/
theorem emb0_1 (t : Fin cfg0.N) (r : Fin 8) (k : Fin 256) :
    ((cfg0.win 1).blk t).view.emb (ix2 r k) = ix2 (row0 t r) k := by
  obtain ⟨-, -, -, -, e4, e5, -⟩ := idx0 t
  funext a; apply Fin.ext
  match a with
  | ⟨0, _⟩ => show win0_1.index t (0 : Fin 2) * 8 + 1 * r.val = t.val * 8 + r.val; rw [e4]; omega
  | ⟨1, _⟩ => show win0_1.index t (1 : Fin 2) * 256 + 1 * k.val = k.val; rw [e5]; omega
theorem emb0_2 (t : Fin cfg0.N) (r : Fin 8) (k : Fin 256) :
    ((cfg0.win 2).blk t).view.emb (ix2 r k) = ix2 (row0 t r) k := by
  obtain ⟨-, -, -, -, -, -, e6, e7⟩ := idx0 t
  funext a; apply Fin.ext
  match a with
  | ⟨0, _⟩ => show win0_2.index t (0 : Fin 2) * 8 + 1 * r.val = t.val * 8 + r.val; rw [e6]; omega
  | ⟨1, _⟩ => show win0_2.index t (1 : Fin 2) * 256 + 1 * k.val = k.val; rw [e7]; omega

/-- The rows of the block are the rows of the array: the block's row function is the array's. -/
theorem rows0 (c : Dev nD) (t : Fin cfg0.N) (r : Fin 8) :
    (fun s c' k' => iblk0 V c 0 t (ix4 r s c' k')) = row (V c main_v1) (row0 t r) :=
  funext fun s => funext fun c' => funext fun k' => iblk0_apply V c t r s c' k'

/-- What point `t` writes back through window 1 is block `t` of the channel sums of `v`. -/
theorem flushed0_1 (c : Dev nD) (t : Fin cfg0.N) :
    (dat0 V c).flushed 1 t = ((cfg0.win 1).blk t).view.read (Elt Ideal) (SsumC (V c main_v1)) := by
  show (cfg0.win 1).cut (grid0.coords t) ((dat0 V c).after 1 t) = _
  rw [after0_1]
  refine funext fun (y : S8x256.Idx) => ?_
  obtain ⟨r, k, rfl⟩ : ∃ (r : Fin 8) (k : Fin 256), y = ix2 r k := ⟨y 0, y 1, eq_ix2 y⟩
  show out0_1 (iblk0 V c 0 t) (ix2 r k) = SsumC (V c main_v1) (((cfg0.win 1).blk t).view.emb (ix2 r k))
  rw [emb0_1, SsumC_apply, ← rows0 V c t r]
  exact out0_1_apply (iblk0 V c 0 t) r k

/-- … and through window 2 block `t` of the channel sums of squares. -/
theorem flushed0_2 (c : Dev nD) (t : Fin cfg0.N) :
    (dat0 V c).flushed 2 t = ((cfg0.win 2).blk t).view.read (Elt Ideal) (WTwo (V c main_v1)) := by
  show (cfg0.win 2).cut (grid0.coords t) ((dat0 V c).after 2 t) = _
  rw [after0_2]
  refine funext fun (y : S8x256.Idx) => ?_
  obtain ⟨r, k, rfl⟩ : ∃ (r : Fin 8) (k : Fin 256), y = ix2 r k := ⟨y 0, y 1, eq_ix2 y⟩
  show out0_2 (iblk0 V c 0 t) (ix2 r k) = WTwo (V c main_v1) (((cfg0.win 2).blk t).view.emb (ix2 r k))
  rw [emb0_2, WTwo_apply, ← rows0 V c t r]
  exact out0_2_apply (iblk0 V c 0 t) r k

/-- An index of the output array is in point `t`'s block iff each coordinate is in the block's range on its axis. -/
theorem mem_blk0_1 (t : Fin cfg0.N) (i : S64x256.Idx) :
    i ∈ ((cfg0.win 1).blk t).view.set ↔ ∀ a : Fin 2, win0_1.index t a * S8x256.size a ≤ (i a).val ∧ (i a).val < win0_1.index t a * S8x256.size a + S8x256.size a := by
  show i ∈ ((View.whole main_v2_0).slice (win0_1.rect t)).set ↔ _
  rw [View.set_slice_whole, Rect.mem_set_unit]
  exact Iff.rfl
theorem mem_blk0_2 (t : Fin cfg0.N) (i : S64x256.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v2_1).slice (win0_2.rect t)).set ↔ _
  rw [View.set_slice_whole, Rect.mem_set_unit]
  exact Iff.rfl

/-- Row n is written by point n / 8. -/
theorem covered0_1 (i : S64x256.Idx) : ∃ t : Fin cfg0.N, (cfg0.win 1).flush t = true ∧ i ∈ ((cfg0.win 1).blk t).view.set := by
  have h0 : (i 0).val < 64 := (i 0).isLt
  have h1 : (i 1).val < 256 := (i 1).isLt
  have hN : cfg0.N = 8 := N_0
  obtain ⟨t, ht⟩ : ∃ t : Fin cfg0.N, t.val = (i 0).val / 8 := ⟨⟨(i 0).val / 8, by omega⟩, rfl⟩
  obtain ⟨-, -, -, -, e4, e5, -⟩ := idx0 t
  refine ⟨t, flush0_1 t, ?_⟩
  rw [mem_blk0_1]
  intro a
  match a with
  | ⟨0, _⟩ => show win0_1.index t (0 : Fin 2) * 8 ≤ (i 0).val ∧ (i 0).val < win0_1.index t (0 : Fin 2) * 8 + 8; rw [e4, ht]; omega
  | ⟨1, _⟩ => show win0_1.index t (1 : Fin 2) * 256 ≤ (i 1).val ∧ (i 1).val < win0_1.index t (1 : Fin 2) * 256 + 256; rw [e5]; omega
theorem covered0_2 (i : S64x256.Idx) : ∃ t : Fin cfg0.N, (cfg0.win 2).flush t = true ∧ i ∈ ((cfg0.win 2).blk t).view.set := by
  have h0 : (i 0).val < 64 := (i 0).isLt
  have h1 : (i 1).val < 256 := (i 1).isLt
  have hN : cfg0.N = 8 := N_0
  obtain ⟨t, ht⟩ : ∃ t : Fin cfg0.N, t.val = (i 0).val / 8 := ⟨⟨(i 0).val / 8, by omega⟩, rfl⟩
  obtain ⟨-, -, -, -, -, -, e6, e7⟩ := idx0 t
  refine ⟨t, flush0_2 t, ?_⟩
  rw [mem_blk0_2]
  intro a
  match a with
  | ⟨0, _⟩ => show win0_2.index t (0 : Fin 2) * 8 ≤ (i 0).val ∧ (i 0).val < win0_2.index t (0 : Fin 2) * 8 + 8; rw [e6, ht]; omega
  | ⟨1, _⟩ => show win0_2.index t (1 : Fin 2) * 256 ≤ (i 1).val ∧ (i 1).val < win0_2.index t (1 : Fin 2) * 256 + 256; rw [e7]; omega

/-- After the call its first output array holds the channel sums of the added centred shots of `v`, … -/
theorem final0_1 (c : Dev nD) : (dat0 V c).arrAt 1 cfg0.N = SsumC (V c main_v1) :=
  (dat0 V c).arrAt_eq_of_cover 1 (SsumC (V c main_v1)) (fun t _ => flushed0_1 V c t) covered0_1
/-- … and its second their squares' channel sums. -/
theorem final0_2 (c : Dev nD) : (dat0 V c).arrAt 2 cfg0.N = WTwo (V c main_v1) :=
  (dat0 V c).arrAt_eq_of_cover 2 (WTwo (V c main_v1)) (fun t _ => flushed0_2 V c t) covered0_2

end Cert.KernelIdeal.Val

end
-- ==== Proof.Region1Pay.lean ====
import proofs.«120627_j635655160223_2_alg».proof.Proof.Gen.KernelIdeal.Frame
import proofs.«120627_j635655160223_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.CorrSim
open Idealize.ShloMosaic Idealize.ShloMosaic.TcCoe Idealize.ShloMosaic.ValueIdx Idealize.SL.Sem
open Idealize.ShloMosaic.Pipeline (Dat Cfg Window)

/-! # The second call's body, read at coordinates

The body holds a block `X` of shape [16, 256, 256] (16 query rows). It divides every channel by the square root of its sum of
squares over the positions, adds the quotients over the channels and stores that; it also stores 256 times that sum times
that sum. -/

theorem hz3 : (![0, 0, 0] : Fin 3 → Nat) = fun _ => 0 := funext fun a => by fin_cases a <;> rfl
theorem hz2' : (![0, 0] : Fin 2 → Nat) = fun _ => 0 := funext fun a => by fin_cases a <;> rfl

/-- The sum over the positions of a [16, 256, 256] value. -/
theorem sum_positions (src : FVec Ideal S16x256x256 .f32) (r : Fin 16) (c : Fin 256) :
    multiReduction .add [2] S16x256 src 0x00000000#32 reduces_S16x256x256_S16x256 (.inl rfl) rfl (ix2 r c)
      = ∑ k : Fin 256, src (ix3 r c k) := by
  refine (Ideal.multiReduction_add_single src 0x00000000#32 reduces_S16x256x256_S16x256 (.inl rfl) rfl (ix2 r c)).trans ?_
  refine Finset.sum_congr rfl fun k _ => congrArg src (funext fun a => Fin.ext ?_)
  match a with
  | ⟨0, _⟩ => rfl
  | ⟨1, _⟩ => rfl
  | ⟨2, _⟩ => rfl

/-- The sum over the channels of a [16, 256, 256] value. -/
theorem sum_channels16 (src : FVec Ideal S16x256x256 .f32) (r : Fin 16) (k : Fin 256) :
    multiReduction .add [1] S16x256 src 0x00000000#32 reduces_S16x256x256_S16x256_2 (.inl rfl) rfl (ix2 r k)
      = ∑ c : Fin 256, src (ix3 r c k) := by
  refine (Ideal.multiReduction_add_single src 0x00000000#32 reduces_S16x256x256_S16x256_2 (.inl rfl) rfl (ix2 r k)).trans ?_
  refine Finset.sum_congr rfl fun c _ => congrArg src (funext fun a => Fin.ext ?_)
  match a with
  | ⟨0, _⟩ => rfl
  | ⟨1, _⟩ => rfl
  | ⟨2, _⟩ => rfl

/-- A [16, 256] value with a unit axis put last. -/
theorem cast_col (v : FVec Ideal S16x256 .f32) (r : Fin 16) (c : Fin 256) :
    shapeCast S16x256x1 v shapeCasts_S16x256_S16x256x1 (ix3 r c (0 : Fin 1)) = v (ix2 r c) := by
  refine shapeCast_apply v _ (ix3 r c (0 : Fin 1)) (ix2 r c) ?_
  rw [Shape.rowMajor_val_three, Shape.rowMajor_val_two]
  show r.val * 256 + c.val = (r.val * 256 + c.val) * 1 + 0
  omega

/-- A [16, 256, 1] value stretched over the positions. -/
theorem bcast_col (v : FVec Ideal S16x256x1 .f32) (r : Fin 16) (c k : Fin 256) :
    broadcastTo S16x256x256 v broadcasts_S16x256x1_S16x256x256 (ix3 r c k) = v (ix3 r c (0 : Fin 1)) := by
  refine broadcastTo_apply v _ (ix3 r c k) (ix3 r c (0 : Fin 1)) fun a => ?_
  match a with
  | ⟨0, _⟩ => show r.val = if (16 : Nat) = 1 then 0 else r.val; rw [if_neg (by decide)]
  | ⟨1, _⟩ => show c.val = if (256 : Nat) = 1 then 0 else c.val; rw [if_neg (by decide)]
  | ⟨2, _⟩ => show 0 = if (1 : Nat) = 1 then 0 else k.val; rw [if_pos rfl]

/-- Every channel's Euclidean norm over the positions, stretched back over the positions, as the body computes it. -/
def norms (x : FVec Ideal S16x256x256 .f32) : FVec Ideal S16x256x256 .f32 :=
  broadcastTo S16x256x256
    (sqrt (shapeCast S16x256x1
      (multiReduction .add [2] S16x256 (mulf x x) 0x00000000#32 reduces_S16x256x256_S16x256 (.inl rfl) rfl)
      shapeCasts_S16x256_S16x256x1))
    broadcasts_S16x256x1_S16x256x256

theorem norms_apply (x : FVec Ideal S16x256x256 .f32) (r : Fin 16) (c k : Fin 256) :
    norms x (ix3 r c k) = nrm (fun c' k' => x (ix3 r c' k')) c := by
  unfold norms nrm
  rw [bcast_col]
  show Ideal.sqrt (shapeCast S16x256x1 _ shapeCasts_S16x256_S16x256x1 (ix3 r c (0 : Fin 1))) = _
  rw [cast_col, sum_positions]
  rfl

/-- The first stored value is the channel sum of the block divided by its channels' norms. -/
theorem quot_eq (X : Vec Ideal S16x256x256 .f32) :
    k1_pay1 X = multiReduction .add [1] S16x256
      (divf (shapeCast S16x256x256 X shapeCasts_S16x256x256_S16x256x256) (norms (shapeCast S16x256x256 X shapeCasts_S16x256x256_S16x256x256)))
      0x00000000#32 reduces_S16x256x256_S16x256_2 (.inl rfl) rfl := rfl

theorem pay1_apply (X : Vec Ideal S16x256x256 .f32) (r : Fin 16) (k : Fin 256) :
    k1_pay1 X (ix2 r k) = qsum (fun c' k' => X (ix3 r c' k')) k := by
  rw [quot_eq, shapeCast_self]
  refine (sum_channels16 _ r k).trans ?_
  unfold qsum
  refine Finset.sum_congr rfl fun c _ => ?_
  rw [divf_apply, norms_apply]

theorem pay2_apply (X : Vec Ideal S16x256x256 .f32) (r : Fin 16) (k : Fin 256) :
    k1_pay2 X (ix2 r k) = wone (fun c' k' => X (ix3 r c' k')) k := by
  show (Scalar.ofBits (F := Ideal) .f32 0x43800000#32 * k1_pay1 X (ix2 r k)) * k1_pay1 X (ix2 r k) = _
  rw [pay1_apply]
  rfl

/-- The two stores of the body. -/
theorem out1_1_apply (X : Vec Ideal S16x256x256 .f32) (r : Fin 16) (k : Fin 256) :
    out1_1 X (ix2 r k) = qsum (fun c' k' => X (ix3 r c' k')) k := by
  unfold out1_1
  rw [View.canon_unit_zero hz2', View.ld_unit_zero (S := S16x256x256) hz3]
  exact pay1_apply X r k
theorem out1_2_apply (X : Vec Ideal S16x256x256 .f32) (r : Fin 16) (k : Fin 256) :
    out1_2 X (ix2 r k) = wone (fun c' k' => X (ix3 r c' k')) k := by
  unfold out1_2
  rw [View.canon_unit_zero hz2', View.ld_unit_zero (S := S16x256x256) hz3]
  exact pay2_apply X r k

end Cert.KernelIdeal.Val

end
-- ==== Proof.Region1.lean ====
import proofs.«120627_j635655160223_2_alg».proof.Proof.Region1Pay

noncomputable section

open scoped BigOperators

namespace Cert.KernelIdeal.Val

open Cert.KernelIdeal Cert.KernelIdeal.Gen Cert.CorrSim
open Idealize.ShloMosaic Idealize.ShloMosaic.TcCoe Idealize.ShloMosaic.ValueIdx Idealize.SL.Sem
open Idealize.ShloMosaic.Pipeline (Dat Cfg Window)

/-! # The second call's two output arrays

The call runs over 16 points; point `t` holds query rows 16 t … 16 t + 15 of the flattened query array `q` and writes rows
16 t … 16 t + 15 of both [256, 256] outputs. A row of either output depends on that row of `q` alone, so each block written is a
block of one whole-array function of `q`, and the 16 blocks tile the 256 rows. -/

variable (V : (c : Dev nD) → (b : Ref sig .tc) → Buf (Elt Ideal) ((c : Thread nD τ).loc b))

/-- The index maps over the 16 points: on the row axis every window's block index is the point; elsewhere it is 0. -/
theorem idx1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `r` of point `t`'s blocks is query row 16 t + r. -/
def row1 (t : Fin cfg1.N) (r : Fin 16) : Fin 256 :=
  ⟨t.val * 16 + r.val, by have := t.isLt; have hN : cfg1.N = 16 := N_1; omega⟩

/-- The input block at point `t` is rows 16 t … 16 t + 15 of the array the region finds. -/
theorem iblk1_apply (c : Dev nD) (t : Fin cfg1.N) (r : Fin 16) (cc k : Fin 256) :
    iblk1 V c 0 t (ix3 r cc k) = V c main_v3 (ix3 (row1 t r) cc k) := by
  obtain ⟨e0, e1, e2, -⟩ := idx1 t
  show V c main_v3 (((cfg1.win 0).blk t).view.emb (ix3 r cc k)) = _
  refine congrArg (V c main_v3) (funext fun a => Fin.ext ?_)
  match a with
  | ⟨0, _⟩ => show win1_0.index t (0 : Fin 3) * 16 + 1 * r.val = t.val * 16 + r.val; rw [e0]; omega
  | ⟨1, _⟩ => show win1_0.index t (1 : Fin 3) * 256 + 1 * cc.val = cc.val; rw [e1]; omega
  | ⟨2, _⟩ => show win1_0.index t (2 : Fin 3) * 256 + 1 * k.val = k.val; rw [e2]; omega

/-- Where entry (r, k) of point `t`'s output block sits in the output array. -/
theorem emb1_1 (t : Fin cfg1.N) (r : Fin 16) (k : Fin 256) :
    ((cfg1.win 1).blk t).view.emb (ix2 r k) = ix2 (row1 t r) k := by
  obtain ⟨-, -, -, e3, e4, -⟩ := idx1 t
  funext a; apply Fin.ext
  match a with
  | ⟨0, _⟩ => show win1_1.index t (0 : Fin 2) * 16 + 1 * r.val = t.val * 16 + r.val; rw [e3]; omega
  | ⟨1, _⟩ => show win1_1.index t (1 : Fin 2) * 256 + 1 * k.val = k.val; rw [e4]; omega
theorem emb1_2 (t : Fin cfg1.N) (r : Fin 16) (k : Fin 256) :
    ((cfg1.win 2).blk t).view.emb (ix2 r k) = ix2 (row1 t r) k := by
  obtain ⟨-, -, -, -, -, e5, e6⟩ := idx1 t
  funext a; apply Fin.ext
  match a with
  | ⟨0, _⟩ => show win1_2.index t (0 : Fin 2) * 16 + 1 * r.val = t.val * 16 + r.val; rw [e5]; omega
  | ⟨1, _⟩ => show win1_2.index t (1 : Fin 2) * 256 + 1 * k.val = k.val; rw [e6]; omega

/-- The rows of the block are the rows of the array. -/
theorem rows1 (c : Dev nD) (t : Fin cfg1.N) (r : Fin 16) :
    (fun c' k' => iblk1 V c 0 t (ix3 r c' k')) = qrow (V c main_v3) (row1 t r) :=
  funext fun c' => funext fun k' => iblk1_apply V c t r c' k'

/-- What point `t` writes back through window 1 is block `t` of the normalised channel sums of `q`. -/
theorem flushed1_1 (c : Dev nD) (t : Fin cfg1.N) :
    (dat1 V c).flushed 1 t = ((cfg1.win 1).blk t).view.read (Elt Ideal) (Qsum (V c main_v3)) := by
  show (cfg1.win 1).cut (grid1.coords t) ((dat1 V c).after 1 t) = _
  rw [after1_1]
  refine funext fun (y : S16x256.Idx) => ?_
  obtain ⟨r, k, rfl⟩ : ∃ (r : Fin 16) (k : Fin 256), y = ix2 r k := ⟨y 0, y 1, eq_ix2 y⟩
  show out1_1 (iblk1 V c 0 t) (ix2 r k) = Qsum (V c main_v3) (((cfg1.win 1).blk t).view.emb (ix2 r k))
  rw [emb1_1, Qsum_apply, ← rows1 V c t r]
  exact out1_1_apply (iblk1 V c 0 t) r k

/-- … and through window 2 block `t` of 256 times their squares. -/
theorem flushed1_2 (c : Dev nD) (t : Fin cfg1.N) :
    (dat1 V c).flushed 2 t = ((cfg1.win 2).blk t).view.read (Elt Ideal) (WOne (V c main_v3)) := by
  show (cfg1.win 2).cut (grid1.coords t) ((dat1 V c).after 2 t) = _
  rw [after1_2]
  refine funext fun (y : S16x256.Idx) => ?_
  obtain ⟨r, k, rfl⟩ : ∃ (r : Fin 16) (k : Fin 256), y = ix2 r k := ⟨y 0, y 1, eq_ix2 y⟩
  show out1_2 (iblk1 V c 0 t) (ix2 r k) = WOne (V c main_v3) (((cfg1.win 2).blk t).view.emb (ix2 r k))
  rw [emb1_2, WOne_apply, ← rows1 V c t r]
  exact out1_2_apply (iblk1 V c 0 t) r k

/-- An index of the output array is in point `t`'s block iff each coordinate is in the block's range on its axis. -/
theorem mem_blk1_1 (t : Fin cfg1.N) (i : S256x256.Idx) :
    i ∈ ((cfg1.win 1).blk t).view.set ↔ ∀ a : Fin 2, win1_1.index t a * S16x256.size a ≤ (i a).val ∧ (i a).val < win1_1.index t a * S16x256.size a + S16x256.size a := by
  show i ∈ ((View.whole main_v4_0).slice (win1_1.rect t)).set ↔ _
  rw [View.set_slice_whole, Rect.mem_set_unit]
  exact Iff.rfl
theorem mem_blk1_2 (t : Fin cfg1.N) (i : S256x256.Idx) :
    i ∈ ((cfg1.win 2).blk t).view.set ↔ ∀ a : Fin 2, win1_2.index t a * S16x256.size a ≤ (i a).val ∧ (i a).val < win1_2.index t a * S16x256.size a + S16x256.size a := by
  show i ∈ ((View.whole main_v4_1).slice (win1_2.rect t)).set ↔ _
  rw [View.set_slice_whole, Rect.mem_set_unit]
  exact Iff.rfl

/-- Row b is written by point b / 16. -/
theorem covered1_1 (i : S256x256.Idx) : ∃ t : Fin cfg1.N, (cfg1.win 1).flush t = true ∧ i ∈ ((cfg1.win 1).blk t).view.set := by
  have h0 : (i 0).val < 256 := (i 0).isLt
  have h1 : (i 1).val < 256 := (i 1).isLt
  have hN : cfg1.N = 16 := N_1
  obtain ⟨t, ht⟩ : ∃ t : Fin cfg1.N, t.val = (i 0).val / 16 := ⟨⟨(i 0).val / 16, by omega⟩, rfl⟩
  obtain ⟨-, -, -, e3, e4, -⟩ := idx1 t
  refine ⟨t, flush1_1 t, ?_⟩
  rw [mem_blk1_1]
  intro a
  match a with
  | ⟨0, _⟩ => show win1_1.index t (0 : Fin 2) * 16 ≤ (i 0).val ∧ (i 0).val < win1_1.index t (0 : Fin 2) * 16 + 16; rw [e3, ht]; omega
  | ⟨1, _⟩ => show win1_1.index t (1 : Fin 2) * 256 ≤ (i 1).val ∧ (i 1).val < win1_1.index t (1 : Fin 2) * 256 + 256; rw [e4]; omega
theorem covered1_2 (i : S256x256.Idx) : ∃ t : Fin cfg1.N, (cfg1.win 2).flush t = true ∧ i ∈ ((cfg1.win 2).blk t).view.set := by
  have h0 : (i 0).val < 256 := (i 0).isLt
  have h1 : (i 1).val < 256 := (i 1).isLt
  have hN : cfg1.N = 16 := N_1
  obtain ⟨t, ht⟩ : ∃ t : Fin cfg1.N, t.val = (i 0).val / 16 := ⟨⟨(i 0).val / 16, by omega⟩, rfl⟩
  obtain ⟨-, -, -, -, -, e5, e6⟩ := idx1 t
  refine ⟨t, flush1_2 t, ?_⟩
  rw [mem_blk1_2]
  intro a
  match a with
  | ⟨0, _⟩ => show win1_2.index t (0 : Fin 2) * 16 ≤ (i 0).val ∧ (i 0).val < win1_2.index t (0 : Fin 2) * 16 + 16; rw [e5, ht]; omega
  | ⟨1, _⟩ => show win1_2.index t (1 : Fin 2) * 256 ≤ (i 1).val ∧ (i 1).val < win1_2.index t (1 : Fin 2) * 256 + 256; rw [e6]; omega

/-- After the call its first output array holds the normalised channel sums of `q`, … -/
theorem final1_1 (c : Dev nD) : (dat1 V c).arrAt 1 cfg1.N = Qsum (V c main_v3) :=
  (dat1 V c).arrAt_eq_of_cover 1 (Qsum (V c main_v3)) (fun t _ => flushed1_1 V c t) covered1_1
/-- … and its second 256 times their squares. -/
theorem final1_2 (c : Dev nD) : (dat1 V c).arrAt 2 cfg1.N = WOne (V c main_v3) :=
  (dat1 V c).arrAt_eq_of_cover 2 (WOne (V c main_v3)) (fun t _ => flushed1_2 V c t) covered1_2

end Cert.KernelIdeal.Val

end
-- ==== Proof.Region2.lean ====
/-
  What the third call leaves in its output array.

  The call runs over four grid points. At point t the body reads rows 64 t … 64 t + 63 of the two [256, 256] arrays
  (blocks x0, x1) and the whole of the two [64, 256] arrays (x2, x3), and stores the [64, 64, 256] block
  out[r, n, k] = (x0[r, k] · x2[n, k]) · rsqrt (max (x1[r, k] · x3[n, k]) ε²) into rows 64 t … 64 t + 63 of the
  [256, 64, 256] output. Read index by index this is the similarity array `SimK` of the four arrays at the index under
  the block entry; the four blocks fill the output, so the output ends holding `SimK` of the four arrays.
-/
import proofs.«120627_j635655160223_2_alg».proof.Proof.Gen.KernelIdeal.Frame
import proofs.«120627_j635655160223_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.CorrSim Idealize.ShloMosaic Idealize.ShloMosaic.TcCoe
  Idealize.ShloMosaic.ValueIdx Idealize.SL.Sem
open Idealize.ShloMosaic.Pipeline (Dat Cfg Window)

/-! ## The body's arithmetic at one index -/

/-- A [64,256] block viewed [64,1,256] and repeated along the middle axis reads, at (r, n, k), the block at (r, k). -/
theorem k3_rep_mid_apply (x : Vec Ideal S64x256 .f32) (r n : Fin 64) (k : Fin 256) :
    broadcastTo S64x64x256 (shapeCast S64x1x256 x shapeCasts_S64x256_S64x1x256) broadcasts_S64x1x256_S64x64x256 (ix3 r n k)
      = x (ix2 r k) := by
  refine (broadcastTo_apply _ broadcasts_S64x1x256_S64x64x256 (ix3 r n k) (ix3 r (0 : Fin 1) k) fun a => ?_).trans ?_
  · match a with
    | ⟨0, _⟩ => rfl
    | ⟨1, _⟩ => rfl
    | ⟨2, _⟩ => rfl
  · exact shapeCast_apply x shapeCasts_S64x256_S64x1x256 _ _ (by
      rw [Shape.rowMajor_val_three, Shape.rowMajor_val_two]
      show r.val * 256 + k.val = (r.val * 1 + 0) * 256 + k.val
      omega)

/-- A [64,256] block viewed [1,64,256] and repeated along the leading axis reads, at (r, n, k), the block at (n, k). -/
theorem k3_rep_lead_apply (x : Vec Ideal S64x256 .f32) (r n : Fin 64) (k : Fin 256) :
    broadcastTo S64x64x256 (shapeCast S1x64x256 x shapeCasts_S64x256_S1x64x256) broadcasts_S1x64x256_S64x64x256 (ix3 r n k)
      = x (ix2 n k) := by
  refine (broadcastTo_apply _ broadcasts_S1x64x256_S64x64x256 (ix3 r n k) (ix3 (0 : Fin 1) n k) fun a => ?_).trans ?_
  · match a with
    | ⟨0, _⟩ => rfl
    | ⟨1, _⟩ => rfl
    | ⟨2, _⟩ => rfl
  · exact shapeCast_ab_1ab_apply x shapeCasts_S64x256_S1x64x256 (0 : Fin 1) n k

/-- The stored value at (r, n, k): the product of the first and third blocks' entries times the reciprocal square
    root of the floored product of the second and fourth blocks' entries. -/
theorem k3_pay_apply (x0 x1 x2 x3 : Vec Ideal S64x256 .f32) (r n : Fin 64) (k : Fin 256) :
    k2_pay1 x0 x1 x2 x3 (ix3 r n k) = simK (x0 (ix2 r k)) (x1 (ix2 r k)) (x2 (ix2 n k)) (x3 (ix2 n k)) := by
  unfold k2_pay1
  simp only [shapeCast_self]
  show (broadcastTo S64x64x256 (shapeCast S64x1x256 x0 shapeCasts_S64x256_S64x1x256) broadcasts_S64x1x256_S64x64x256 (ix3 r n k)
        * broadcastTo S64x64x256 (shapeCast S1x64x256 x2 shapeCasts_S64x256_S1x64x256) broadcasts_S1x64x256_S64x64x256 (ix3 r n k))
      * Ideal.rsqrt (max (broadcastTo S64x64x256 (shapeCast S64x1x256 x1 shapeCasts_S64x256_S64x1x256) broadcasts_S64x1x256_S64x64x256 (ix3 r n k)
        * broadcastTo S64x64x256 (shapeCast S1x64x256 x3 shapeCasts_S64x256_S1x64x256) broadcasts_S1x64x256_S64x64x256 (ix3 r n k))
          (Ideal.ofBits .f32 0x24E69595#32)) = _
  rw [k3_rep_mid_apply, k3_rep_mid_apply, k3_rep_lead_apply, k3_rep_lead_apply]
  rfl

/-! ## What one grid point writes back -/

theorem k3_zero3 : (![0, 0, 0] : Fin 3 → Nat) = fun _ => 0 := funext fun a => by fin_cases a <;> rfl
theorem k3_zero2 : (![0, 0] : Fin 2 → Nat) = fun _ => 0 := funext fun a => by fin_cases a <;> rfl

/-- The block index maps over the four grid points: the first two inputs move with the output along the leading
    axis, the last two stay at the origin, and the output's block index is the point itself. -/
theorem k3_idx_facts : ∀ t : Fin cfg2.N,
    win2_0.index t (0 : Fin 2) = win2_4.index t (0 : Fin 3) ∧ win2_0.index t (1 : Fin 2) = 0
  ∧ win2_1.index t (0 : Fin 2) = win2_4.index t (0 : Fin 3) ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (1 : Fin 3) = 0 ∧ win2_4.index t (2 : Fin 3) = 0
  ∧ win2_4.index t (0 : Fin 3) = t.val :=
  (by decide +kernel : ∀ t : Fin grid2.N, _)

variable (V : (c : Dev nD) → (b : Ref sig .tc) → Buf (Elt Ideal) ((c : Thread nD τ).loc b))

/-- The first input's block at (r, k) is the array at the output block's row and k. -/
theorem k3_blk0_apply (c : Dev nD) (t : Fin cfg2.N) (r n : Fin 64) (k : Fin 256) (i : So.Idx)
    (hi : i = ((cfg2.win 4).blk t).view.emb (ix3 r n k)) :
    iblk2 V c 0 t (ix2 r k) = V c main_v4_0 (ix2 ⟨(i 0).val, (i 0).isLt⟩ ⟨(i 2).val, (i 2).isLt⟩) := by
  subst hi
  obtain ⟨e00, e01, e10, e11, e20, e21, e30, e31, e41, e42, e40⟩ := k3_idx_facts t
  show V c main_v4_0 (((cfg2.win 0).blk t).view.emb (ix2 r k)) = _
  refine congrArg (V c main_v4_0) (funext fun a => Fin.ext ?_)
  match a with
  | ⟨0, _⟩ =>
    show win2_0.index t (0 : Fin 2) * 64 + 1 * r.val = win2_4.index t (0 : Fin 3) * 64 + 1 * r.val
    omega
  | ⟨1, _⟩ =>
    show win2_0.index t (1 : Fin 2) * 256 + 1 * k.val = win2_4.index t (2 : Fin 3) * 256 + 1 * k.val
    omega

/-- The second input's block at (r, k) is the array at the output block's row and k. -/
theorem k3_blk1_apply (c : Dev nD) (t : Fin cfg2.N) (r n : Fin 64) (k : Fin 256) (i : So.Idx)
    (hi : i = ((cfg2.win 4).blk t).view.emb (ix3 r n k)) :
    iblk2 V c 1 t (ix2 r k) = V c main_v4_1 (ix2 ⟨(i 0).val, (i 0).isLt⟩ ⟨(i 2).val, (i 2).isLt⟩) := by
  subst hi
  obtain ⟨e00, e01, e10, e11, e20, e21, e30, e31, e41, e42, e40⟩ := k3_idx_facts t
  show V c main_v4_1 (((cfg2.win 1).blk t).view.emb (ix2 r k)) = _
  refine congrArg (V c main_v4_1) (funext fun a => Fin.ext ?_)
  match a with
  | ⟨0, _⟩ =>
    show win2_1.index t (0 : Fin 2) * 64 + 1 * r.val = win2_4.index t (0 : Fin 3) * 64 + 1 * r.val
    omega
  | ⟨1, _⟩ =>
    show win2_1.index t (1 : Fin 2) * 256 + 1 * k.val = win2_4.index t (2 : Fin 3) * 256 + 1 * k.val
    omega

/-- The third input's block is the whole array: at (n, k) it is the array at the output's middle coordinate and k. -/
theorem k3_blk2_apply (c : Dev nD) (t : Fin cfg2.N) (r n : Fin 64) (k : Fin 256) (i : So.Idx)
    (hi : i = ((cfg2.win 4).blk t).view.emb (ix3 r n k)) :
    iblk2 V c 2 t (ix2 n k) = V c main_v2_0 (ix2 ⟨(i 1).val, (i 1).isLt⟩ ⟨(i 2).val, (i 2).isLt⟩) := by
  subst hi
  obtain ⟨e00, e01, e10, e11, e20, e21, e30, e31, e41, e42, e40⟩ := k3_idx_facts t
  show V c main_v2_0 (((cfg2.win 2).blk t).view.emb (ix2 n k)) = _
  refine congrArg (V c main_v2_0) (funext fun a => Fin.ext ?_)
  match a with
  | ⟨0, _⟩ =>
    show win2_2.index t (0 : Fin 2) * 64 + 1 * n.val = win2_4.index t (1 : Fin 3) * 64 + 1 * n.val
    omega
  | ⟨1, _⟩ =>
    show win2_2.index t (1 : Fin 2) * 256 + 1 * k.val = win2_4.index t (2 : Fin 3) * 256 + 1 * k.val
    omega

/-- The fourth input's block is the whole array: at (n, k) it is the array at the output's middle coordinate and k. -/
theorem k3_blk3_apply (c : Dev nD) (t : Fin cfg2.N) (r n : Fin 64) (k : Fin 256) (i : So.Idx)
    (hi : i = ((cfg2.win 4).blk t).view.emb (ix3 r n k)) :
    iblk2 V c 3 t (ix2 n k) = V c main_v2_1 (ix2 ⟨(i 1).val, (i 1).isLt⟩ ⟨(i 2).val, (i 2).isLt⟩) := by
  subst hi
  obtain ⟨e00, e01, e10, e11, e20, e21, e30, e31, e41, e42, e40⟩ := k3_idx_facts t
  show V c main_v2_1 (((cfg2.win 3).blk t).view.emb (ix2 n k)) = _
  refine congrArg (V c main_v2_1) (funext fun a => Fin.ext ?_)
  match a with
  | ⟨0, _⟩ =>
    show win2_3.index t (0 : Fin 2) * 64 + 1 * n.val = win2_4.index t (1 : Fin 3) * 64 + 1 * n.val
    omega
  | ⟨1, _⟩ =>
    show win2_3.index t (1 : Fin 2) * 256 + 1 * k.val = win2_4.index t (2 : Fin 3) * 256 + 1 * k.val
    omega

/-- The stored block of point `t` at (r, n, k) is the similarity array at the index under it. -/
theorem k3_stored_apply (c : Dev nD) (t : Fin cfg2.N) (r n : Fin 64) (k : Fin 256) :
    k2_pay1 (iblk2 V c 0 t) (iblk2 V c 1 t) (iblk2 V c 2 t) (iblk2 V c 3 t) (ix3 r n k)
      = SimK (V c main_v4_0) (V c main_v4_1) (V c main_v2_0) (V c main_v2_1) (((cfg2.win 4).blk t).view.emb (ix3 r n k)) := by
  refine (k3_pay_apply (iblk2 V c 0 t) (iblk2 V c 1 t) (iblk2 V c 2 t) (iblk2 V c 3 t) r n k).trans ?_
  rw [k3_blk0_apply V c t r n k _ rfl, k3_blk1_apply V c t r n k _ rfl, k3_blk2_apply V c t r n k _ rfl, k3_blk3_apply V c t r n k _ rfl]
  rfl

/-- What point `t` writes back is block `t` of the similarity array of the four arrays as the region finds them. -/
theorem k3_flushed_eq (c : Dev nD) (t : Fin cfg2.N) :
    (dat2 (F := Ideal) V c).flushed 4 t
      = ((cfg2.win 4).blk t).view.read (Elt Ideal) (SimK (V c main_v4_0) (V c main_v4_1) (V c main_v2_0) (V c main_v2_1)) := by
  show (cfg2.win 4).cut (grid2.coords t) ((dat2 V c).after 4 t) = _
  rw [after2_4]
  unfold out2_4
  rw [View.canon_unit_zero k3_zero3]
  simp only [View.ld_unit_zero (S := S64x256) k3_zero2]
  funext j
  obtain ⟨r, n, k, rfl⟩ : ∃ (r n : Fin 64) (k : Fin 256), j = ix3 r n k := ⟨j 0, j 1, j 2, eq_ix3 j⟩
  exact k3_stored_apply V c t r n k

/-! ## The four blocks fill the array -/

/-- An index of the array is in point `t`'s block iff each coordinate is in the block's range on its axis. -/
theorem k3_mem_blk (t : Fin cfg2.N) (i : S256x64x256.Idx) :
    i ∈ ((cfg2.win 4).blk t).view.set ↔ ∀ a : Fin 3, win2_4.index t a * S64x64x256.size a ≤ (i a).val
      ∧ (i a).val < win2_4.index t a * S64x64x256.size a + S64x64x256.size a := by
  show i ∈ ((View.whole main_v5).slice (win2_4.rect t)).set ↔ _
  rw [View.set_slice_whole, Rect.mem_set_unit]
  exact Iff.rfl

/-- Every index (b, n, k) lies in the block of the point b / 64, and every point writes its block back. -/
theorem k3_cover (i : S256x64x256.Idx) :
    ∃ t : Fin cfg2.N, (cfg2.win 4).flush t = true ∧ i ∈ ((cfg2.win 4).blk t).view.set := by
  have h0 : (i 0).val < 256 := (i 0).isLt
  have h1 : (i 1).val < 64 := (i 1).isLt
  have h2 : (i 2).val < 256 := (i 2).isLt
  have hlt : (i 0).val / 64 < cfg2.N := by
    show (i 0).val / 64 < 4
    omega
  obtain ⟨-, -, -, -, -, -, -, -, e41, e42, e40⟩ := k3_idx_facts ⟨(i 0).val / 64, hlt⟩
  have e40' : win2_4.index ⟨(i 0).val / 64, hlt⟩ (0 : Fin 3) = (i 0).val / 64 := e40
  refine ⟨⟨(i 0).val / 64, hlt⟩, flush2_4 _, ?_⟩
  rw [k3_mem_blk]
  intro a
  match a with
  | ⟨0, _⟩ =>
    show win2_4.index ⟨(i 0).val / 64, hlt⟩ (0 : Fin 3) * 64 ≤ (i 0).val
      ∧ (i 0).val < win2_4.index ⟨(i 0).val / 64, hlt⟩ (0 : Fin 3) * 64 + 64
    omega
  | ⟨1, _⟩ =>
    show win2_4.index ⟨(i 0).val / 64, hlt⟩ (1 : Fin 3) * 64 ≤ (i 1).val
      ∧ (i 1).val < win2_4.index ⟨(i 0).val / 64, hlt⟩ (1 : Fin 3) * 64 + 64
    omega
  | ⟨2, _⟩ =>
    show win2_4.index ⟨(i 0).val / 64, hlt⟩ (2 : Fin 3) * 256 ≤ (i 2).val
      ∧ (i 2).val < win2_4.index ⟨(i 0).val / 64, hlt⟩ (2 : Fin 3) * 256 + 256
    omega

/-! ## The array after the run -/

/-- The third call's output array ends holding the similarity array of the four arrays it reads. -/
theorem final2_4 (c : Dev nD) :
    (dat2 (F := Ideal) V c).arrAt 4 cfg2.N = SimK (V c main_v4_0) (V c main_v4_1) (V c main_v2_0) (V c main_v2_1) :=
  (dat2 V c).arrAt_eq_of_cover 4 (SimK (V c main_v4_0) (V c main_v4_1) (V c main_v2_0) (V c main_v2_1))
    (fun t _ => k3_flushed_eq V c t) k3_cover

end Cert.KernelIdeal.Val

end
-- ==== Proof.Glue.lean ====
/-
  The buffer contents at the boundaries of @main, read through the fold of its segments.

  @main is: a transpose and a reshape of the support argument; region 0 (which leaves the two per-support-row sums);
  a reshape of the query argument; region 1 (which leaves the two per-query-row sums); region 2 (which leaves the
  similarity array); a reshape of that array. At each region's entry the arrays it reads are therefore:
  the reshaped transposed support argument (`entry_v`); the reshaped query argument (`entry_q`), which no earlier
  segment writes; and for region 2 what regions 0 and 1 left in their outputs (`entry_ssumc`, `entry_wtwo`,
  `entry_qsum`, `entry_wone`), region 0's outputs being untouched by the second reshape and by region 1. The result
  is the reshape of what region 2 leaves in its output (`result_eq`).
-/
import proofs.«120627_j635655160223_2_alg».proof.Proof.Gen.KernelIdeal.Frame
import Idealize.ShloMosaic.Lib.StableHlo.Run
import Idealize.ShloMosaic.Lib.Pipeline.Value
import Idealize.ShloMosaic.PureOps.Ideal

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- Region 0 reads the support argument transposed and reshaped. -/
theorem entry_v : (V1 m ρ c main_v1 : S64x5x256x256.Idx → EReal) = shapeCast S64x5x256x256 (transpose S64x256x5x16x16 [0, 2, 1, 3, 4] (m ((c : Thread nD τ).loc main_arg1)) transposes_S64x5x256x16x16_S64x256x5x16x16_0_2_1_3_4) shapeCasts_S64x256x5x16x16_S64x5x256x256 := by
  show StableHlo.after hostOps0 (W0 m ρ c) (Proc.devRef .tc main_v1) = _
  after_results
  rfl

/-- The query argument is as launched when region 0 exits: neither the first stretch nor region 0 writes it. -/
theorem W2_main_arg0 : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Region 1 reads the query argument reshaped. -/
theorem entry_q : (V3 m ρ c main_v3 : S256x256x256.Idx → EReal) = shapeCast S256x256x256 (m ((c : Thread nD τ).loc main_arg0)) shapeCasts_S256x256x16x16_S256x256x256 := by
  show StableHlo.after hostOps1 (W2 m ρ c) (Proc.devRef .tc main_v3) = _
  after_results
  rw [W2_main_arg0]
  rfl

/-- Region 2 reads what region 1 leaves in its first output … -/
theorem entry_qsum : V4 m ρ c main_v4_0 = (dat1 (V3 m ρ) c).arrAt 1 cfg1.N := W4_arr m ρ c 1
/-- … and in its second. -/
theorem entry_wone : V4 m ρ c main_v4_1 = (dat1 (V3 m ρ) c).arrAt 2 cfg1.N := W4_arr m ρ c 2

/-- A buffer the second stretch does not write and no window of region 1 has is, at region 1's exit, as at region 0's. -/
theorem W4_eq_W2 (b : Ref sig .tc) (h1 : ∀ w, Pipeline.arrRef spec1 w ≠ b) (hb : b ≠ main_v3) :
    W4 m ρ c (Proc.devRef .tc b) = W2 m ρ c (Proc.devRef .tc b) :=
  calc W4 m ρ c (Proc.devRef .tc b)
    _ = W3 m ρ c (Proc.devRef .tc b) := W4_of_ne m ρ c b h1
    _ = W2 m ρ c (Proc.devRef .tc b) := StableHlo.after_of_forall_not_mem (b := Proc.devRef .tc b) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne hb))

/-- Region 2 reads what region 0 leaves in its first output … -/
theorem entry_ssumc : V4 m ρ c main_v2_0 = (dat0 (V1 m ρ) c).arrAt 1 cfg0.N :=
  (W4_eq_W2 m ρ c main_v2_0 (by decide) (by decide)).trans (W2_arr m ρ c 1)
/-- … and in its second. -/
theorem entry_wtwo : V4 m ρ c main_v2_1 = (dat0 (V1 m ρ) c).arrAt 2 cfg0.N :=
  (W4_eq_W2 m ρ c main_v2_1 (by decide) (by decide)).trans (W2_arr m ρ c 2)

/-- The result is the reshape of what region 2 leaves in its output. -/
theorem result_eq : (W6 m ρ c (Proc.devRef .tc main_v6) : S256x16384.Idx → EReal) = shapeCast S256x16384 ((dat2 (V4 m ρ) c).arrAt 4 cfg2.N) shapeCasts_S256x64x256_S256x16384 := by
  show StableHlo.after hostOps3 (W5 m ρ c) (Proc.devRef .tc main_v6) = _
  after_results
  rw [show W5 m ρ c (Proc.devRef .tc main_v5) = (dat2 (V4 m ρ) c).arrAt 4 cfg2.N from W5_arr m ρ c 4]
  rfl

end Cert.KernelIdeal.Val

end
-- ==== Proof.RefStages.lean ====
/-
  The reference's stages are the specification's functions, on the extended reals.

  The support array `v` = stage 1 has shape [64, 5, 256, 256] (row n, shot s, channel c, position k); the query array
  `q` = stage 9 has shape [256, 256, 256] (row b, channel c, position k). Read at coordinates:
  stage 2 is the sum over the channels of one shot, stage 7 the element less that sum divided by 256, stage 8 the five
  centred shots added (`cen`); stage 14 sums stage 8 over the channels (`SsumC`), stage 16 its square (`WTwo`).
  On the query side the inner sum is the squared norm of a channel over the positions, stage 12 the element divided by
  the norm, stage 13 its sum over the channels (`Qsum`), stage 19 = 256 · stage 13 · stage 13 (`WOne`).
  Stage 33 at (b, n, k) is stage 13 (b, k) · stage 14 (n, k) divided by the square root of
  max (stage 19 (b, k) · stage 16 (n, k)) ε² (`SimR`).
  Each zero initial value of a sum is the extended real 0 and drops out; each composed index is shown equal to the index
  of its coordinates axis by axis.
-/
import proofs.«120627_j635655160223_2_alg».proof.Proof.Gen.ReferenceIdeal.Read
import proofs.«120627_j635655160223_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.CorrSim Idealize.ShloMosaic Idealize.ShloMosaic.ValueIdx

/-- The zero initial value of a sum. -/
theorem zero_word : (FloatOps.ofBits (F := Ideal) .f32 0x00000000#32 : EReal) = 0 := by
  rw [Ideal.ofBits_def, Ideal.ofBits_zero_f32]

/-- The sum over the channels of one shot at one position. -/
theorem v2_at (x1 : (⟨S64x5x256x16x16, .f32⟩ : BufTy).Contents (Elt Ideal)) (n : Fin 64) (s : Fin 5) (k : Fin 256) :
    val_main_v2 (F := Ideal) x1 (ix3 n s k) = ∑ c : Fin 256, val_main_v1 (F := Ideal) x1 (ix4 n s c k) := by
  rw [val_main_v2_apply, val_main_cst_apply, zero_word, zero_add]
  refine Finset.sum_congr rfl fun c _ => ?_
  exact congrArg (val_main_v1 (F := Ideal) x1) (funext fun a => Fin.ext (by match a with | ⟨0, _⟩ => rfl | ⟨1, _⟩ => rfl | ⟨2, _⟩ => rfl | ⟨3, _⟩ => rfl))

/-- A centred element: the element less the mean over the channels. -/
theorem v7_at (x1 : (⟨S64x5x256x16x16, .f32⟩ : BufTy).Contents (Elt Ideal)) (n : Fin 64) (s : Fin 5) (c k : Fin 256) :
    val_main_v7 (F := Ideal) x1 (ix4 n s c k)
      = row (val_main_v1 (F := Ideal) x1) n s c k - mu (row (val_main_v1 (F := Ideal) x1) n) s k := by
  rw [val_main_v7_apply, val_main_v6_apply, val_main_v5_apply, val_main_v3_apply, val_main_v4_apply,
    val_main_cst_0_apply, Ideal.subf_def, Ideal.hostDivf_def, Ideal.ofBits_def]
  have h3 : idx_main_v3 (idx_main_v6 (ix4 n s c k)) = ix3 n s k :=
    funext fun a => Fin.ext (by match a with | ⟨0, _⟩ => rfl | ⟨1, _⟩ => rfl | ⟨2, _⟩ => rfl)
  rw [h3, v2_at]
  rfl

/-- The five centred shots added. -/
theorem v8_at (x1 : (⟨S64x5x256x16x16, .f32⟩ : BufTy).Contents (Elt Ideal)) (n : Fin 64) (c k : Fin 256) :
    val_main_v8 (F := Ideal) x1 (ix3 n c k) = cen (row (val_main_v1 (F := Ideal) x1) n) c k := by
  rw [val_main_v8_apply, val_main_cst_1_apply, zero_word, zero_add]
  unfold cen
  refine Finset.sum_congr rfl fun s _ => ?_
  have h : idx_main_v8 (ix3 n c k) s = ix4 n s c k :=
    funext fun a => Fin.ext (by match a with | ⟨0, _⟩ => rfl | ⟨1, _⟩ => rfl | ⟨2, _⟩ => rfl | ⟨3, _⟩ => rfl)
  rw [h, v7_at]

/-- Stage 14 is the centred shots added, summed over the channels. -/
theorem v14_eq (x1 : (⟨S64x5x256x16x16, .f32⟩ : BufTy).Contents (Elt Ideal)) :
    val_main_v14 (F := Ideal) x1 = SsumC (val_main_v1 (F := Ideal) x1) := by
  funext i
  obtain ⟨n, k, rfl⟩ : ∃ (n : Fin 64) (k : Fin 256), i = ix2 n k := ⟨i 0, i 1, eq_ix2 i⟩
  rw [val_main_v14_apply, val_main_cst_3_apply, zero_word, zero_add, SsumC_apply]
  unfold ssumc
  refine Finset.sum_congr rfl fun c _ => ?_
  have h : idx_main_v14 (ix2 n k) c = ix3 n c k :=
    funext fun a => Fin.ext (by match a with | ⟨0, _⟩ => rfl | ⟨1, _⟩ => rfl | ⟨2, _⟩ => rfl)
  rw [h, v8_at]

/-- Stage 16 is the squares of the centred shots added, summed over the channels. -/
theorem v16_eq (x1 : (⟨S64x5x256x16x16, .f32⟩ : BufTy).Contents (Elt Ideal)) :
    val_main_v16 (F := Ideal) x1 = WTwo (val_main_v1 (F := Ideal) x1) := by
  funext i
  obtain ⟨n, k, rfl⟩ : ∃ (n : Fin 64) (k : Fin 256), i = ix2 n k := ⟨i 0, i 1, eq_ix2 i⟩
  rw [val_main_v16_apply, val_main_cst_4_apply, zero_word, zero_add, WTwo_apply]
  unfold wtwo
  refine Finset.sum_congr rfl fun c _ => ?_
  have h : idx_main_v16 (ix2 n k) c = ix3 n c k :=
    funext fun a => Fin.ext (by match a with | ⟨0, _⟩ => rfl | ⟨1, _⟩ => rfl | ⟨2, _⟩ => rfl)
  rw [h, val_main_v15_apply, Ideal.mulf_def, v8_at]

/-- The squared Euclidean norm of one channel over the positions. -/
theorem call0_v1_at (x0 : (⟨S256x256x16x16, .f32⟩ : BufTy).Contents (Elt Ideal)) (b c : Fin 256) :
    val_main_call0_v1 (F := Ideal) x0 (ix2 b c)
      = ∑ k : Fin 256, qrow (val_main_v9 (F := Ideal) x0) b c k * qrow (val_main_v9 (F := Ideal) x0) b c k := by
  rw [val_main_call0_v1_apply, val_main_call0_cst_apply, zero_word, zero_add]
  refine Finset.sum_congr rfl fun k _ => ?_
  have h : idx_main_call0_v1 (ix2 b c) k = ix3 b c k :=
    funext fun a => Fin.ext (by match a with | ⟨0, _⟩ => rfl | ⟨1, _⟩ => rfl | ⟨2, _⟩ => rfl)
  rw [h, val_main_call0_v0_apply, Ideal.mulf_def]
  rfl

/-- One element divided by the norm of its channel. -/
theorem v12_at (x0 : (⟨S256x256x16x16, .f32⟩ : BufTy).Contents (Elt Ideal)) (b c k : Fin 256) :
    val_main_v12 (F := Ideal) x0 (ix3 b c k)
      = Ideal.div (qrow (val_main_v9 (F := Ideal) x0) b c k) (nrm (qrow (val_main_v9 (F := Ideal) x0) b) c) := by
  rw [val_main_v12_apply, val_main_v11_apply, val_main_v10_apply, val_main_call0_v2_apply,
    Ideal.hostDivf_def, Ideal.hostUnary_sqrt_def]
  have h : idx_main_call0_v2 (idx_main_v11 (ix3 b c k)) = ix2 b c :=
    funext fun a => Fin.ext (by match a with | ⟨0, _⟩ => rfl | ⟨1, _⟩ => rfl)
  rw [h, call0_v1_at]
  rfl

/-- Stage 13 is the normalised channels added. -/
theorem v13_eq (x0 : (⟨S256x256x16x16, .f32⟩ : BufTy).Contents (Elt Ideal)) :
    val_main_v13 (F := Ideal) x0 = Qsum (val_main_v9 (F := Ideal) x0) := by
  funext i
  obtain ⟨b, k, rfl⟩ : ∃ (b : Fin 256) (k : Fin 256), i = ix2 b k := ⟨i 0, i 1, eq_ix2 i⟩
  rw [val_main_v13_apply, val_main_cst_2_apply, zero_word, zero_add, Qsum_apply]
  unfold qsum
  refine Finset.sum_congr rfl fun c _ => ?_
  have h : idx_main_v13 (ix2 b k) c = ix3 b c k :=
    funext fun a => Fin.ext (by match a with | ⟨0, _⟩ => rfl | ⟨1, _⟩ => rfl | ⟨2, _⟩ => rfl)
  rw [h, v12_at]

/-- Stage 19 is 256 times the square of stage 13. -/
theorem v19_eq (x0 : (⟨S256x256x16x16, .f32⟩ : BufTy).Contents (Elt Ideal)) :
    val_main_v19 (F := Ideal) x0 = WOne (val_main_v9 (F := Ideal) x0) := by
  funext i
  obtain ⟨b, k, rfl⟩ : ∃ (b : Fin 256) (k : Fin 256), i = ix2 b k := ⟨i 0, i 1, eq_ix2 i⟩
  rw [val_main_v19_apply, val_main_v18_apply, val_main_v17_apply, val_main_cst_5_apply, v13_eq,
    Ideal.mulf_def, Ideal.mulf_def, Ideal.ofBits_def, WOne_apply, Qsum_apply]
  rfl

/-- Stage 33 is the similarity in its quotient spelling, from the four reduced stages. -/
theorem v33_eq (x0 : (⟨S256x256x16x16, .f32⟩ : BufTy).Contents (Elt Ideal))
    (x1 : (⟨S64x5x256x16x16, .f32⟩ : BufTy).Contents (Elt Ideal)) :
    val_main_v33 (F := Ideal) x0 x1
      = SimR (val_main_v13 (F := Ideal) x0) (val_main_v19 (F := Ideal) x0) (val_main_v14 (F := Ideal) x1)
          (val_main_v16 (F := Ideal) x1) := by
  funext i
  obtain ⟨b, n, k, rfl⟩ : ∃ (b : Fin 256) (n : Fin 64) (k : Fin 256), i = ix3 b n k := ⟨i 0, i 1, i 2, eq_ix3 i⟩
  rw [val_main_v33_apply, val_main_v32_apply, val_main_v31_apply, val_main_v30_apply, val_main_cst_6_apply,
    val_main_v29_apply, val_main_v28_apply, val_main_v27_apply, val_main_v26_apply, val_main_v25_apply,
    val_main_v24_apply, val_main_v23_apply, val_main_v22_apply, val_main_v21_apply, val_main_v20_apply,
    Ideal.hostDivf_def, Ideal.hostUnary_sqrt_def, Ideal.maximumf_def, Ideal.mulf_def, Ideal.mulf_def,
    Ideal.ofBits_def, SimR_apply]
  have hb : idx_main_v20 (idx_main_v22 (ix3 b n k)) = ix2 b k :=
    funext fun a => Fin.ext (by match a with | ⟨0, _⟩ => rfl | ⟨1, _⟩ => rfl)
  have hn : idx_main_v21 (idx_main_v23 (ix3 b n k)) = ix2 n k :=
    funext fun a => Fin.ext (by match a with | ⟨0, _⟩ => rfl | ⟨1, _⟩ => rfl)
  have hb' : idx_main_v25 (idx_main_v27 (ix3 b n k)) = ix2 b k :=
    funext fun a => Fin.ext (by match a with | ⟨0, _⟩ => rfl | ⟨1, _⟩ => rfl)
  have hn' : idx_main_v26 (idx_main_v28 (ix3 b n k)) = ix2 n k :=
    funext fun a => Fin.ext (by match a with | ⟨0, _⟩ => rfl | ⟨1, _⟩ => rfl)
  rw [hb, hn, hb', hn']
  rfl

end Cert.ReferenceIdeal.RefValue

end
-- ==== Proof.Bridge.lean ====
import proofs.«120627_j635655160223_2_alg».proof.Proof.Region0
import proofs.«120627_j635655160223_2_alg».proof.Proof.Region1
import proofs.«120627_j635655160223_2_alg».proof.Proof.Region2
import proofs.«120627_j635655160223_2_alg».proof.Proof.Glue
import proofs.«120627_j635655160223_2_alg».proof.Proof.RefStages

noncomputable section

namespace Cert.KernelIdeal.Val

open Cert.KernelIdeal Cert.KernelIdeal.Gen Cert.CorrSim
open Idealize.ShloMosaic Idealize.ShloMosaic.TcCoe Idealize.SL.Sem
open Idealize.ShloMosaic.Pipeline (Dat Cfg Window)

/-! # The kernel's result is the reference's

With `v` the support array permuted and flattened to [64, 5, 256, 256] and `q` the query array flattened to [256, 256, 256]
— the same two host operations in both programs — the kernel's three calls leave the similarity array in its
reciprocal-square-root spelling of the four reduced arrays of `v` and `q`, and the reference's stages compute the quotient
spelling of the same four arrays; the two spellings are one function, and both programs end with the same reshape. -/

variable (m : (ℓ : Loc nD τ sig) → Buf (Elt Ideal) ℓ) (ρ : Dev nD → PrngReg) (c : Dev nD)

/-- The query array as the second call finds it. -/
abbrev qOf : S256x256x256.Idx → EReal :=
  shapeCast S256x256x256 (m ((c : Thread nD τ).loc main_arg0)) shapeCasts_S256x256x16x16_S256x256x256
/-- The support array as the first call finds it. -/
abbrev vOf : S64x5x256x256.Idx → EReal :=
  shapeCast S64x5x256x256 (transpose S64x256x5x16x16 [0, 2, 1, 3, 4] (m ((c : Thread nD τ).loc main_arg1)) transposes_S64x5x256x16x16_S64x256x5x16x16_0_2_1_3_4) shapeCasts_S64x256x5x16x16_S64x5x256x256

/-- The result buffer after the run: the last reshape of the third call's array, whose four operands are the first two calls'
    arrays, each a function of the array its call found. -/
theorem kernel_result : (W6 m ρ c (Proc.devRef .tc main_v6) : S256x16384.Idx → EReal)
    = shapeCast S256x16384 (SimK (Qsum (qOf m c)) (WOne (qOf m c)) (SsumC (vOf m c)) (WTwo (vOf m c))) shapeCasts_S256x64x256_S256x16384 := by
  rw [result_eq m ρ c, final2_4 (V4 m ρ) c, entry_qsum m ρ c, entry_wone m ρ c, entry_ssumc m ρ c, entry_wtwo m ρ c,
    final1_1 (V3 m ρ) c, final1_2 (V3 m ρ) c, final0_1 (V1 m ρ) c, final0_2 (V1 m ρ) c, entry_q m ρ c, entry_v m ρ c]

open Cert.ReferenceIdeal.Read Cert.ReferenceIdeal.RefValue in
/-- … and that is the reference's last stage of the same two argument arrays. -/
theorem bridge : (W6 m ρ c (Proc.devRef .tc main_v6) : S256x16384.Idx → EReal)
    = val_main_v34 (F := Ideal) (m ((c : Thread nD τ).loc main_arg0)) (m ((c : Thread nD τ).loc main_arg1)) := by
  rw [kernel_result, SimK_eq_SimR]
  unfold val_main_v34
  rw [v33_eq, v13_eq, v19_eq, v14_eq, v16_eq]
  unfold val_main_v9 val_main_v1 val_main_v0
  rfl

end Cert.KernelIdeal.Val

end
-- ==== Proof.lean ====
/-
  Query rows against support rows, position by position: both programs permute and flatten the support array to
  `v` : [64, 5, 256, 256] and flatten the query array to `q` : [256, 256, 256]; both centre every shot of `v` over its channels,
  add the shots, and sum the result and its square over the channels; both divide every channel of `q` by its norm over the
  positions, add over the channels, and form 256 times that sum squared; both then combine the four reduced arrays entry by
  entry and flatten [256, 64, 256] to [256, 16384]. They differ in one step: the kernel multiplies by the reciprocal square
  root of `max (w1 · w2) ε²` where the reference divides by its square root. The maximum is at least the positive real ε², and
  there the two are one function of extended reals (a positive real: the product with `(√m)⁻¹`; `⊤`: zero), so the results
  agree element by element whatever the arguments hold — finiteness of the inputs is never used. Sums are regrouped freely:
  addition of extended reals is commutative and associative.

  The three frames are the programs' runs with the result dropped; the idealization rewrote nothing.
-/
import proofs.«120627_j635655160223_2_alg».proof.Defs
import proofs.«120627_j635655160223_2_alg».proof.Proof.Gen.Kernel
import proofs.«120627_j635655160223_2_alg».proof.Proof.Gen.Kernel.Frame
import proofs.«120627_j635655160223_2_alg».proof.Proof.Gen.KernelIdeal
import proofs.«120627_j635655160223_2_alg».proof.Proof.Gen.KernelIdeal.Frame
import proofs.«120627_j635655160223_2_alg».proof.Proof.Gen.ReferenceIdeal
import proofs.«120627_j635655160223_2_alg».proof.Proof.Gen.ReferenceIdeal.Run
import proofs.«120627_j635655160223_2_alg».proof.Proof.Gen.ReferenceIdeal.Read
import proofs.«120627_j635655160223_2_alg».proof.Proof.Gen.Pre_finite_inputs
import proofs.«120627_j635655160223_2_alg».proof.Proof.Run
import proofs.«120627_j635655160223_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments both programs run, and the kernel's result buffer ends holding the
    reference's last stage of those arguments. -/
theorem algebraic : Cert.algebraic_KernelIdeal_ReferenceIdeal := by
  intro m ρ m' ρ' _ hagree
  refine ⟨fun c => Cert.KernelIdeal.Gen.W6 m ρ c (Proc.devRef .tc Cert.KernelIdeal.main_v6),
    Cert.KernelIdeal.Val.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2]
  exact (Cert.KernelIdeal.Val.bridge m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
